-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg8 : FVec F S128 .f32) (main_arg16 : FVec F S128 .f32) (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  let main_cst_40 : FVec F S_ .f32 := constant S_ .f32 0x00000000#32
  let main_v104 : FVec F S128 .f32 := broadcastInDim S128 ![] bcast_S_S128 main_cst_40
  let main_v105 : IVec S128 1 := cmpf .oge main_arg8 main_v104
  let main_c_41 : IVec S_ 1 := constantI S_ 1 1#1
  let main_v106 : IVec S_ 1 := (fun x v => Host.reduce IntOp.andi x v reducesTo_S128_S_d0 h_S_) main_v105 main_c_41
  let main_v107 : IVec S_ 1 := andi main_v103 main_v106
  let main_cst_42 : FVec F S_ .f32 := constant S_ .f32 0x00000000#32
  let main_v108 : FVec F S128 .f32 := broadcastInDim S128 ![] bcast_S_S128 main_cst_42
  let main_v109 : IVec S128 1 := cmpf .oge main_arg16 main_v108
  let main_c_43 : IVec S_ 1 := constantI S_ 1 1#1
  let main_v110 : IVec S_ 1 := (fun x v => Host.reduce IntOp.andi x v reducesTo_S128_S_d0 h_S_) main_v109 main_c_43
  let main_v111 : IVec S_ 1 := andi main_v107 main_v110
  main_v111

def fn_part5 {F : FTy → Type} [FloatOps F] (main_arg8 : FVec F S128 .f32) (main_arg16 : FVec F S128 .f32) (main_arg20 : FVec F S64 .f32) (main_arg21 : FVec F S64x10 .f32) (main_arg22 : FVec F S10 .f32) (main_v83 : IVec S_ 1) (main_v84 : FVec F S256x64 .f32) (main_cst_32 : FVec F S_ .f32) : IVec S_ 1 :=
  let main_v85 : FVec F S256x64 .f32 := broadcastInDim S256x64 ![] bcast_S_S256x64 main_cst_32
  let main_v86 : IVec S256x64 1 := cmpf .olt main_v84 main_v85
  let main_c_33 : IVec S_ 1 := constantI S_ 1 1#1
  let main_v87 : IVec S_ 1 := (fun x v => Host.reduce IntOp.andi x v reducesTo_S256x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x10 .f32 := Host.absf main_arg21
  let main_cst_36 : FVec F S_ .f32 := constant S_ .f32 0x7F800000#32
  let main_v95 : FVec F S64x10 .f32 := broadcastInDim S64x10 ![] bcast_S_S64x10 main_cst_36
  let main_v96 : IVec S64x10 1 := cmpf .olt main_v94 main_v95
  let main_c_37 : IVec S_ 1 := constantI S_ 1 1#1
  let main_v97 : IVec S_ 1 := (fun x v => Host.reduce IntOp.andi x v reducesTo_S64x10_S_d0_1 h_S_) main_v96 main_c_37
  let main_v98 : IVec S_ 1 := andi main_v93 main_v97
  let main_v99 : FVec F S10 .f32 := Host.absf main_arg22
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_arg8 main_arg16 main_v98 main_v101 main_c_39

def fn_part4 {F : FTy → Type} [FloatOps F] (main_arg8 : FVec F S128 .f32) (main_arg16 : FVec F S128 .f32) (main_arg17 : FVec F S128x128 .f32) (main_arg18 : FVec F S128 .f32) (main_arg19 : FVec F S256x64 .f32) (main_arg20 : FVec F S64 .f32) (main_arg21 : FVec F S64x10 .f32) (main_arg22 : FVec F S10 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S256x64 .f32 := Host.absf main_arg19
  let main_cst_32 : FVec F S_ .f32 := constant S_ .f32 0x7F800000#32
  fn_part5 (F := F) main_arg8 main_arg16 main_arg20 main_arg21 main_arg22 main_v83 main_v84 main_cst_32

def fn_part3 {F : FTy → Type} [FloatOps F] (main_arg8 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S256x64 .f32) (main_arg20 : FVec F S64 .f32) (main_arg21 : FVec F S64x10 .f32) (main_arg22 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg8 main_arg16 main_arg17 main_arg18 main_arg19 main_arg20 main_arg21 main_arg22 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S256x64 .f32) (main_arg20 : FVec F S64 .f32) (main_arg21 : FVec F S64x10 .f32) (main_arg22 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg8 main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S256x64 .f32) (main_arg20 : FVec F S64 .f32) (main_arg21 : FVec F S64x10 .f32) (main_arg22 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S256x64 .f32) (main_arg20 : FVec F S64 .f32) (main_arg21 : FVec F S64x10 .f32) (main_arg22 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x10 : Shape := ⟨2, ![64, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S500x128 : Shape := ⟨2, ![500, 128]⟩
abbrev S50000x1 : Shape := ⟨2, ![50000, 1]⟩
abbrev S128x64 : Shape := ⟨2, ![128, 64]⟩
abbrev S1x64 : Shape := ⟨2, ![1, 64]⟩
abbrev S1x10 : Shape := ⟨2, ![1, 10]⟩
abbrev S500x10 : Shape := ⟨2, ![500, 10]⟩
abbrev S500x64 : Shape := ⟨2, ![500, 64]⟩

abbrev nBuf : Space → Nat
  | .hbm => 82
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S256x64, .f32⟩
  | .hbm, ⟨20, _⟩ => ⟨S64, .f32⟩
  | .hbm, ⟨21, _⟩ => ⟨S64x10, .f32⟩
  | .hbm, ⟨22, _⟩ => ⟨S10, .f32⟩
  | .hbm, ⟨23, _⟩ => ⟨S1x600000, .i32⟩
  | .hbm, ⟨24, _⟩ => ⟨S600000, .i32⟩
  | .hbm, ⟨25, _⟩ => ⟨S1x600000, .i32⟩
  | .hbm, ⟨26, _⟩ => ⟨S600000, .i32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S50000x128, .f32⟩
  | .hbm, ⟨69, _⟩ => ⟨S_, .f32⟩
  | .hbm, ⟨70, _⟩ => ⟨S500x128, .f32⟩
  | .hbm, ⟨71, _⟩ => ⟨S50000x1, .i32⟩
  | .hbm, ⟨72, _⟩ => ⟨S500x128, .f32⟩
  | .hbm, ⟨73, _⟩ => ⟨S_, .f32⟩
  | .hbm, ⟨74, _⟩ => ⟨S500x128, .f32⟩
  | .hbm, ⟨75, _⟩ => ⟨S50000x1, .i32⟩
  | .hbm, ⟨76, _⟩ => ⟨S500x128, .f32⟩
  | .hbm, ⟨77, _⟩ => ⟨S128x64, .f32⟩
  | .hbm, ⟨78, _⟩ => ⟨S128x64, .f32⟩
  | .hbm, ⟨79, _⟩ => ⟨S1x64, .f32⟩
  | .hbm, ⟨80, _⟩ => ⟨S1x10, .f32⟩
  | .hbm, ⟨81, _⟩ => ⟨S500x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S500x128, .f32⟩
  | .local _ .vmem, ⟨25, _⟩ => ⟨S500x128, .f32⟩
  | .local _ .vmem, ⟨26, _⟩ => ⟨S128x64, .f32⟩
  | .local _ .vmem, ⟨27, _⟩ => ⟨S128x64, .f32⟩
  | .local _ .vmem, ⟨28, _⟩ => ⟨S1x64, .f32⟩
  | .local _ .vmem, ⟨29, _⟩ => ⟨S64x10, .f32⟩
  | .local _ .vmem, ⟨30, _⟩ => ⟨S1x10, .f32⟩
  | .local _ .vmem, ⟨31, _⟩ => ⟨S500x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_1 : Ref sig .tc := ⟨.hbm, 48, rfl⟩
abbrev main_v22 : Ref sig .tc := ⟨.hbm, 49, rfl⟩
abbrev main_v23 : Ref sig .tc := ⟨.hbm, 50, rfl⟩
abbrev main_c_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S500x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S500x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S500x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S500x128 : S_.BroadcastsInDim S500x128 (![] : Fin 0 → Fin S500x128.rank)
  bcast_S50000_S50000x1_0 : S50000.BroadcastsInDim S50000x1 (![0] : Fin 1 → Fin S50000x1.rank)
  slices_S256x64_S128x64_0_0 : S256x64.Slices ![0, 0] S128x64
  slices_S256x64_S128x64_128_0 : S256x64.Slices ![128, 0] S128x64
  shapeCasts_S64_S1x64 : S64.ShapeCasts S1x64
  shapeCasts_S10_S1x10 : S10.ShapeCasts S1x10
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S500x64 : S1x64.Broadcasts S500x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S500x10 : S1x10.Broadcasts S500x10
  inb_S500x10_S500x10_0_0 : ∀ a, (![0, 0] : Fin 2 → Nat) a + S500x10.size a ≤ S500x10.size a
  h_S500x10 : 0 < S500x10.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S500x128_S50000x1_S50000x128_1_0_0_1_wf : ScatterDims.WF S500x128 S50000x1 S50000x128 [1] [0] [0] 1
  dot_S500x128_S128x64_S500x64_1_0_0_1_n_n_wf : DotDims.WF S500x128 S128x64 S500x64 [1] [0] [0] [1] [] []
  dot_S500x64_S64x10_S500x10_1_0_0_1_n_n_wf : DotDims.WF S500x64 S64x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S500x128.size a ≤ S500x128.size a
  hwx2_0 : ∀ i : grid2.Coords, EltTy.bits .f32 = 32 ∨ (Rect.block (s := S500x128) S500x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S500x128.size a ≤ S500x128.size a
  hwx2_1 : ∀ i : grid2.Coords, EltTy.bits .f32 = 32 ∨ (Rect.block (s := S500x128) S500x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x10.size a ≤ S64x10.size a
  hwx2_5 : ∀ i : grid2.Coords, EltTy.bits .f32 = 32 ∨ (Rect.block (s := S64x10) S64x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x10.size a ≤ S1x10.size a
  hwx2_6 : ∀ i : grid2.Coords, EltTy.bits .f32 = 32 ∨ (Rect.block (s := S1x10) S1x10.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S500x10.size a ≤ S500x10.size a
  hwx2_7 : ∀ i : grid2.Coords, EltTy.bits .f32 = 32 ∨ (Rect.block (s := S500x10) S500x10.size (cc2_transform_7 i) (hinb2_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v42) S500x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v45) S500x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg21) S64x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S1x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50) S500x10.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x10 : Shape := ⟨2, ![64, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S500x128 : Shape := ⟨2, ![500, 128]⟩
abbrev S50000x1 : Shape := ⟨2, ![50000, 1]⟩
abbrev S500x256 : Shape := ⟨2, ![500, 256]⟩
abbrev S500x64 : Shape := ⟨2, ![500, 64]⟩
abbrev S1x64 : Shape := ⟨2, ![1, 64]⟩
abbrev S500x10 : Shape := ⟨2, ![500, 10]⟩
abbrev S1x10 : Shape := ⟨2, ![1, 10]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x128, .f32⟩
  | 18 => ⟨S128, .f32⟩
  | 19 => ⟨S256x64, .f32⟩
  | 20 => ⟨S64, .f32⟩
  | 21 => ⟨S64x10, .f32⟩
  | 22 => ⟨S10, .f32⟩
  | 23 => ⟨S1x600000, .i32⟩
  | 24 => ⟨S600000, .i32⟩
  | 25 => ⟨S1x600000, .i32⟩
  | 26 => ⟨S600000, .i32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x128, .f32⟩
  | 36 => ⟨S_, .f32⟩
  | 37 => ⟨S50000x128, .f32⟩
  | 38 => ⟨S600000x1, .i32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S128, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000x128, .f32⟩
  | 78 => ⟨S_, .f32⟩
  | 79 => ⟨S50000x128, .f32⟩
  | 80 => ⟨S600000x1, .i32⟩
  | 81 => ⟨S50000x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S128, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S_, .f32⟩
  | 112 => ⟨S500x128, .f32⟩
  | 113 => ⟨S50000x1, .i32⟩
  | 114 => ⟨S500x128, .f32⟩
  | 115 => ⟨S_, .f32⟩
  | 116 => ⟨S500x128, .f32⟩
  | 117 => ⟨S50000x1, .i32⟩
  | 118 => ⟨S500x128, .f32⟩
  | 119 => ⟨S500x256, .f32⟩
  | 120 => ⟨S500x64, .f32⟩
  | 121 => ⟨S1x64, .f32⟩
  | 122 => ⟨S500x64, .f32⟩
  | 123 => ⟨S500x64, .f32⟩
  | 124 => ⟨S_, .f32⟩
  | 125 => ⟨S500x64, .f32⟩
  | 126 => ⟨S500x64, .f32⟩
  | 127 => ⟨S500x10, .f32⟩
  | _ => ⟨S50000x128, .f32⟩

abbrev hbmTy0_1 (i : Nat) : BufTy := match i % 128 with
  | 0 => ⟨S1x10, .f32⟩
  | 1 => ⟨S500x10, .f32⟩
  | 2 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call0_cst : Ref sig .tc := ⟨.hbm, 59, rfl⟩
abbrev main_call0_v0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call1_cst : Ref sig .tc := ⟨.hbm, 66, rfl⟩
abbrev main_call1_v0 : Ref sig .tc := ⟨.hbm, 67, rfl⟩
abbrev main_v37 : Ref sig .tc := ⟨.hbm, 68, rfl⟩
abbrev main_c_2 : Ref sig .tc := ⟨.hbm, 69, rfl⟩
abbrev main_v38 : Ref sig .tc := ⟨.hbm, 70, rfl⟩
abbrev main_v39 : Ref sig .tc := ⟨.hbm, 71, rfl⟩
abbrev main_c_3 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_4 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_call2_cst : Ref sig .tc := ⟨.hbm, 87, rfl⟩
abbrev main_call2_v0 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_5 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call3_cst : Ref sig .tc := ⟨.hbm, 108, rfl⟩
abbrev main_call3_v0 : Ref sig .tc := ⟨.hbm, 109, rfl⟩
abbrev main_v71 : Ref sig .tc := ⟨.hbm, 110, rfl⟩
abbrev main_cst_6 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_7 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_call4_cst : Ref sig .tc := ⟨.hbm, 124, rfl⟩
abbrev main_call4_v0 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S500x128 : S_.BroadcastsInDim S500x128 (![] : Fin 0 → Fin S500x128.rank)
  bcast_S50000_S50000x1_0 : S50000.BroadcastsInDim S50000x1 (![0] : Fin 1 → Fin S50000x1.rank)
  concatenates_S500x128_S500x128_S500x256_d1 : Shape.Concatenates [S500x128, S500x128] S500x256 1
  bcast_S64_S1x64_1 : S64.BroadcastsInDim S1x64 (![1] : Fin 1 → Fin S1x64.rank)
  bcast_S1x64_S500x64_0_1 : S1x64.BroadcastsInDim S500x64 (![0, 1] : Fin 2 → Fin S500x64.rank)
  bcast_S_S500x64 : S_.BroadcastsInDim S500x64 (![] : Fin 0 → Fin S500x64.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S500x128_S50000x1_S50000x128_1_0_0_1_wf : ScatterDims.WF S500x128 S50000x1 S50000x128 [1] [0] [0] 1
  dot_S500x256_S256x64_S500x64_1_0_0_1_n_n_wf : DotDims.WF S500x256 S256x64 S500x64 [1] [0] [0] [1] [] []
  dot_S500x64_S64x10_S500x10_1_0_0_1_n_n_wf : DotDims.WF S500x64 S64x10 S500x10 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x256_S256x64_S500x64_1_0_0_1_n_n : DotDims S500x256 S256x64 S500x64 where
  lhsContracting := [1]
  rhsContracting := [0]
  lhsNonContracting := [0]
  rhsNonContracting := [1]
  lhsBatch := []
  rhsBatch := []
  wf := dot_S500x256_S256x64_S500x64_1_0_0_1_n_n_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

class Facts : Prop extends Facts₀ where

variable [Facts]
-- ==== Proof.KernelRun.lean ====
/-
  The idealized kernel's run with EVERY buffer named at its end.

  The program is three stretches of array operations, each followed by a launch of a pipelined kernel. Run from a
  memory `m`, the contents of the buffers after each of the six segments are a fold from `m`: a stretch applies its
  operations, a launch replaces each of its arrays by what its grid points write back. The statement here is that
  every weakly fair execution terminates, nothing faulting, in a state where each buffer that outlives the launches
  holds the last value of that fold. The result buffer and the argument buffers are among them, so both the value
  of the result and the fact that the arguments are unchanged are read off this one statement.
-/
import proofs.«172484_j23390391894890_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with each buffer that outlives the launches
    at the last value of the fold through the six segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The result buffer at the end of that run: what the last launch's grid points wrote back to it. -/
theorem result_eq (c : Dev nD) : W6 m ρ c (Proc.devRef .tc main_v50) = (dat2 (V5 m ρ) c).arrAt 7 cfg2.N :=
  W6_arr m ρ c 7

end Cert.KernelIdeal.Whole

end
-- ==== Proof.Rows.lean ====
/-
  The network both programs compute, one row at a time, over the extended reals.

  A node's features pass twice through "sum with the neighbours, then a two-layer perceptron with a batch
  normalisation in the middle"; the graphs' pooled features then pass through a two-layer head. Every layer acts
  on one row at a time, so each is written here as a function of ONE row of its input and of the weights:

    dense a W b j      = (sum over k of a k * W k j) + b j
    norm h m s be      = (h - m) * s + be          (s the normalisation's scale of that column)
    conv1Row           = max (dense (max (norm (dense a Wa ba) ...) 0) Wb bb) 0
    conv2Row           = max (dense (norm (max (dense a Wa ba) 0) ...) Wb bb) 0
    headRow            = dense (max (dense p W1 b1) 0) W2 b2

  The two programs differ in how they spell the scale: gamma * rsqrt (v + eps) on one side, gamma / sqrt (v + eps)
  on the other. For a variance v >= 0 the two are one number (`scale_eq`): v + eps is then a positive real r (or
  +infinity), 1/sqrt r is the inverse of sqrt r, and a quotient by a nonzero real is the product with its inverse;
  at +infinity both scales are gamma * 0. Below -eps the two differ (gamma * (-infinity) against gamma / (-infinity) = 0),
  which is why the variance is assumed non-negative.

  The head's first layer is also spelt two ways: one product with the 256-row weight matrix of the two pooled
  halves side by side, or the sum of the two halves' products with its upper and lower 128 rows (`sum_halves`).
-/
import Idealize.ShloMosaic.PureOps.Ideal
import Idealize.ShloMosaic.PureOps.Ideal.Laws

noncomputable section

open scoped BigOperators

namespace Cert.GinRows

open Idealize.ShloMosaic

/-! ## The epsilon under the root -/

/-- The f32 pattern of the normalisation's epsilon denotes a positive real. -/
theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-! ## The scale of a normalised column, spelt two ways -/

/-- For a positive real under the root, gamma times the reciprocal root is gamma over the root. -/
theorem scale_real (g : EReal) {r : ℝ} (hr : 0 < r) :
    g * Ideal.rsqrt (r : EReal) = Ideal.div g (Ideal.sqrt (r : EReal)) := by
  have hs : Real.sqrt r ≠ 0 := (Real.sqrt_pos.mpr hr).ne'
  show g * (if r < 0 then (⊥ : EReal) else if r = 0 then (⊤ : EReal) else (((Real.sqrt r)⁻¹ : ℝ) : EReal))
    = Ideal.div g (if r < 0 then (⊥ : EReal) else ((Real.sqrt r : ℝ) : EReal))
  rw [if_neg (not_lt.mpr hr.le), if_neg hr.ne', if_neg (not_lt.mpr hr.le), Ideal.div_coe hs, one_div]

/-- For a non-negative variance, gamma * rsqrt (v + eps) is gamma / sqrt (v + eps). -/
theorem scale_eq (g v : EReal) (hv : 0 ≤ v) :
    g * Ideal.rsqrt (v + Ideal.ofBits .f32 0x3727C5AC#32)
      = Ideal.div g (Ideal.sqrt (v + Ideal.ofBits .f32 0x3727C5AC#32)) := by
  obtain ⟨e, he, hE⟩ := eps_pos
  rw [hE]
  induction v using EReal.rec with
  | bot => exact absurd hv (by simp)
  | top =>
    rw [EReal.top_add_coe]
    show g * 0 = Ideal.div g ⊤
    rw [Ideal.div, if_neg (by simp), EReal.inv_top, mul_zero]
  | coe a =>
    have ha : 0 ≤ a := by exact_mod_cast hv
    rw [← EReal.coe_add]
    exact scale_real g (by positivity)

/-! ## The layers, one row at a time -/

variable {K N : ℕ}

/-- One row through a dense layer: the row times the weight matrix, plus the bias. -/
def dense (a : Fin K → EReal) (W : Fin K → Fin N → EReal) (b : Fin N → EReal) (j : Fin N) : EReal :=
  (∑ k : Fin K, a k * W k j) + b j

/-- One entry through the normalisation's affine map with scale `s`. -/
def norm (h m s be : EReal) : EReal := (h - m) * s + be

/-- One row through the first convolution's perceptron: dense, normalise, cut at zero, dense, cut at zero. -/
def conv1Row (s : Fin K → EReal) (a : Fin K → EReal) (Wa : Fin K → Fin K → EReal) (ba m be : Fin K → EReal)
    (Wb : Fin K → Fin N → EReal) (bb : Fin N → EReal) (j : Fin N) : EReal :=
  max (dense (fun k => max (norm (dense a Wa ba k) (m k) (s k) (be k)) 0) Wb bb j) 0

/-- One row through the second convolution's perceptron: dense, cut at zero, normalise, dense, cut at zero. -/
def conv2Row (s : Fin K → EReal) (a : Fin K → EReal) (Wa : Fin K → Fin K → EReal) (ba m be : Fin K → EReal)
    (Wb : Fin K → Fin N → EReal) (bb : Fin N → EReal) (j : Fin N) : EReal :=
  max (dense (fun k => norm (max (dense a Wa ba k) 0) (m k) (s k) (be k)) Wb bb j) 0

/-- Equal rows, weights and columns give equal entries of the first convolution's perceptron. -/
theorem conv1Row_congr {s s' : Fin K → EReal} {a a' : Fin K → EReal} {Wa Wa' : Fin K → Fin K → EReal}
    {ba ba' m m' be be' : Fin K → EReal} {Wb Wb' : Fin K → Fin N → EReal} {bb bb' : Fin N → EReal} {j j' : Fin N}
    (hs : s = s') (ha : a = a') (hWa : Wa = Wa') (hba : ba = ba') (hm : m = m') (hbe : be = be') (hWb : Wb = Wb')
    (hbb : bb = bb') (hj : j = j') :
    conv1Row s a Wa ba m be Wb bb j = conv1Row s' a' Wa' ba' m' be' Wb' bb' j' := by
  subst hs ha hWa hba hm hbe hWb hbb hj; rfl

/-- The same for the second convolution's perceptron. -/
theorem conv2Row_congr {s s' : Fin K → EReal} {a a' : Fin K → EReal} {Wa Wa' : Fin K → Fin K → EReal}
    {ba ba' m m' be be' : Fin K → EReal} {Wb Wb' : Fin K → Fin N → EReal} {bb bb' : Fin N → EReal} {j j' : Fin N}
    (hs : s = s') (ha : a = a') (hWa : Wa = Wa') (hba : ba = ba') (hm : m = m') (hbe : be = be') (hWb : Wb = Wb')
    (hbb : bb = bb') (hj : j = j') :
    conv2Row s a Wa ba m be Wb bb j = conv2Row s' a' Wa' ba' m' be' Wb' bb' j' := by
  subst hs ha hWa hba hm hbe hWb hbb hj; rfl

/-- One pooled row through the head, its first layer given as the row's pre-activation `h`. -/
def headRow {J C : ℕ} (h : Fin J → EReal) (W2 : Fin J → Fin C → EReal) (b2 : Fin C → EReal) (c : Fin C) : EReal :=
  dense (fun j => max (h j) 0) W2 b2 c

/-- Equal pre-activations, weights and columns give equal entries of the head. -/
theorem headRow_congr {J C : ℕ} {h h' : Fin J → EReal} {W2 W2' : Fin J → Fin C → EReal} {b2 b2' : Fin C → EReal} {c c' : Fin C}
    (hh : h = h') (hW : W2 = W2') (hb : b2 = b2') (hc : c = c') : headRow h W2 b2 c = headRow h' W2' b2' c' := by
  subst hh hW hb hc; rfl

/-- A sum over 2n terms is the sum of its first n and its last n terms. -/
theorem sum_halves {n : ℕ} (f : Fin (n + n) → EReal) :
    ∑ k : Fin (n + n), f k = (∑ k : Fin n, f (Fin.castAdd n k)) + ∑ k : Fin n, f (Fin.natAdd n k) :=
  Fin.sum_univ_add f

end Cert.GinRows

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«172484_j23390391894890_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«172484_j23390391894890_2_alg».proof.Proof.LibDenseRows
import proofs.«172484_j23390391894890_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.Bodies.lean ====
/-
  The first convolution's kernel body, read at one entry.

  The body takes a block of 5000 rows of the aggregated features and the whole weights. Its arithmetic, as one term
  of the loaded blocks, is: rows times the first weight matrix plus its bias row; minus the running mean, times
  gamma * rsqrt (variance + eps), plus beta; the maximum with zero; times the second weight matrix plus its bias
  row; the maximum with zero. (The narrowings to bf16 in front of the two products are the identity on exact
  values.) At entry (p, j) that is `conv1Row` of row p of the block, with the scale of column k spelt
  gamma k * rsqrt (variance k + eps).
-/
import proofs.«172484_j23390391894890_2_alg».proof.Proof.Gen.KernelIdeal.Skeleton
import proofs.«172484_j23390391894890_2_alg».proof.Proof.Rows
import proofs.«172484_j23390391894890_2_alg».proof.Proof.LibPlainLayers
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Bodies

open Cert.KernelIdeal Cert.KernelIdeal.Gen
open Idealize.ShloMosaic Idealize.ShloMosaic.TcCoe Idealize.ShloMosaic.ValueIdx Cert.GinRows Cert.PlainLayers

/-- The scale of column k as the kernels spell it, from the [1, 128] rows of gamma and of the variance. -/
def scaleK (g v : S1x128.Idx → EReal) (k : Fin 128) : EReal :=
  g (ix2 (0 : Fin 1) k) * Ideal.rsqrt (v (ix2 (0 : Fin 1) k) + Ideal.ofBits .f32 0x3727C5AC#32)

/-- The scale row the bodies broadcast down the block, at column k. -/
theorem scale_row_apply (g v : FVec Ideal S1x128 .f32) (p : Fin 5000) (k : Fin 128) :
    broadcastTo S5000x128 (mulf (F := Ideal) (shapeCast S1x128 g shapeCasts_S1x128_S1x128)
        (rsqrt (addf (shapeCast S1x128 v shapeCasts_S1x128_S1x128)
          (broadcast S1x128 (Scalar.ofBits (F := Ideal) .f32 0x3727C5AC#32))))) broadcasts_S1x128_S5000x128 (ix2 p k)
      = scaleK g v k := by
  refine (broadcastTo_1b_ab_apply _ broadcasts_S1x128_S5000x128 p k).trans ?_
  show shapeCast S1x128 g shapeCasts_S1x128_S1x128 (ix2 (0 : Fin 1) k)
      * Ideal.rsqrt (shapeCast S1x128 v shapeCasts_S1x128_S1x128 (ix2 (0 : Fin 1) k) + Ideal.ofBits .f32 0x3727C5AC#32) = _
  rw [shapeCast_self g, shapeCast_self v]
  rfl

/-- A [1, 128] row broadcast down the block, at (p, k). -/
theorem row_apply (b : FVec Ideal S1x128 .f32) (p : Fin 5000) (k : Fin 128) :
    broadcastTo S5000x128 (shapeCast S1x128 b shapeCasts_S1x128_S1x128) broadcasts_S1x128_S5000x128 (ix2 p k)
      = b (ix2 (0 : Fin 1) k) :=
  (broadcastTo_1b_ab_apply _ broadcasts_S1x128_S5000x128 p k).trans (congrFun (shapeCast_self b _) _)

/-- The block times a weight matrix, both narrowed to bf16 first, plus a bias row: a dense layer at (p, k). -/
theorem dense_apply (x : FVec Ideal S5000x128 .f32) (w : FVec Ideal S128x128 .f32) (b : FVec Ideal S1x128 .f32)
    (p : Fin 5000) (k : Fin 128) :
    addf (F := Ideal) (matmul dot_S5000x128_S128x128_S5000x128_1_0_0_1_n_n none
        (truncf .bf16 x bitsLt_bf16_f32) (truncf .bf16 w bitsLt_bf16_f32) (constant S5000x128 .f32 0x00000000#32))
      (broadcastTo S5000x128 (shapeCast S1x128 b shapeCasts_S1x128_S1x128) broadcasts_S1x128_S5000x128) (ix2 p k)
      = dense (fun l => x (ix2 p l)) (fun l k => w (ix2 l k)) (fun k => b (ix2 (0 : Fin 1) k)) k :=
  congrArg₂ (· + ·)
    (plainMM_of_eq dot_S5000x128_S128x128_S5000x128_1_0_0_1_n_n rfl none
      (truncf .bf16 x bitsLt_bf16_f32) (truncf .bf16 w bitsLt_bf16_f32) p k)
    (row_apply b p k)

/-- The first convolution's body at (p, j): `conv1Row` of row p of the block. -/
theorem conv1_apply (x0 : FVec Ideal S5000x128 .f32) (x1 : FVec Ideal S128x128 .f32) (x2 x3 x4 x5 x6 : FVec Ideal S1x128 .f32)
    (x7 : FVec Ideal S128x128 .f32) (x8 : FVec Ideal S1x128 .f32) (p : Fin 5000) (j : Fin 128) :
    k0_pay1 (F := Ideal) (k0_pay2 x0 x1 x2 x3 x4 x5 x6 x7) (k0_pay3 x8) (ix2 p j)
      = conv1Row (scaleK x3 x6) (fun l => x0 (ix2 p l)) (fun l k => x1 (ix2 l k)) (fun k => x2 (ix2 (0 : Fin 1) k))
          (fun k => x5 (ix2 (0 : Fin 1) k)) (fun k => x4 (ix2 (0 : Fin 1) k)) (fun k j => x7 (ix2 k j))
          (fun j => x8 (ix2 (0 : Fin 1) j)) j := by
  unfold k0_pay1 k0_pay2 k0_pay3 conv1Row
  refine congrArg₂ max ?_ Ideal.ofBits_zero_f32
  refine (dense_apply _ x7 x8 p j).trans ?_
  unfold dense
  refine congrArg (· + x8 (ix2 (0 : Fin 1) j)) (Finset.sum_congr rfl fun k _ => congrArg (· * x7 (ix2 k j)) ?_)
  refine congrArg₂ max ?_ Ideal.ofBits_zero_f32
  refine congrArg₂ (· + ·) (congrArg₂ (· * ·) (congrArg₂ (· - ·) ?_ (row_apply x5 p k)) (scale_row_apply x3 x6 p k))
    (row_apply x4 p k)
  refine (dense_apply (shapeCast S5000x128 x0 shapeCasts_S5000x128_S5000x128) x1 x2 p k).trans ?_
  rw [shapeCast_self]
  rfl

/-- The second convolution's body at (p, j): `conv2Row` of row p of the block (the cut at zero comes BEFORE the
    normalisation here). -/
theorem conv2_apply (x0 : FVec Ideal S5000x128 .f32) (x1 : FVec Ideal S128x128 .f32) (x2 x3 x4 x5 x6 : FVec Ideal S1x128 .f32)
    (x7 : FVec Ideal S128x128 .f32) (x8 : FVec Ideal S1x128 .f32) (p : Fin 5000) (j : Fin 128) :
    k1_pay1 (F := Ideal) (k1_pay2 x0 x1 x2 x3 x4 x5 x6 x7) (k1_pay3 x8) (ix2 p j)
      = conv2Row (scaleK x3 x6) (fun l => x0 (ix2 p l)) (fun l k => x1 (ix2 l k)) (fun k => x2 (ix2 (0 : Fin 1) k))
          (fun k => x5 (ix2 (0 : Fin 1) k)) (fun k => x4 (ix2 (0 : Fin 1) k)) (fun k j => x7 (ix2 k j))
          (fun j => x8 (ix2 (0 : Fin 1) j)) j := by
  unfold k1_pay1 k1_pay2 k1_pay3 conv2Row
  refine congrArg₂ max ?_ Ideal.ofBits_zero_f32
  refine (dense_apply _ x7 x8 p j).trans ?_
  unfold dense
  refine congrArg (· + x8 (ix2 (0 : Fin 1) j)) (Finset.sum_congr rfl fun k _ => congrArg (· * x7 (ix2 k j)) ?_)
  refine congrArg₂ (· + ·) (congrArg₂ (· * ·) (congrArg₂ (· - ·) (congrArg₂ max ?_ Ideal.ofBits_zero_f32) (row_apply x5 p k))
    (scale_row_apply x3 x6 p k)) (row_apply x4 p k)
  refine (dense_apply (shapeCast S5000x128 x0 shapeCasts_S5000x128_S5000x128) x1 x2 p k).trans ?_
  rw [shapeCast_self]
  rfl

/-- The head's body at (p, c): the two pooled blocks times the upper and the lower half of the first weight matrix,
    summed, plus the bias row; cut at zero; times the second weight matrix plus its bias row. -/
theorem head_apply (x0 x1 : FVec Ideal S500x128 .f32) (x2 x3 : FVec Ideal S128x64 .f32) (x4 : FVec Ideal S1x64 .f32)
    (x5 : FVec Ideal S64x10 .f32) (x6 : FVec Ideal S1x10 .f32) (p : Fin 500) (c : Fin 10) :
    k2_pay1 (F := Ideal) x0 x1 x2 x3 x4 x5 x6 (ix2 p c)
      = headRow (fun j => ((∑ k : Fin 128, x0 (ix2 p k) * x2 (ix2 k j)) + ∑ k : Fin 128, x1 (ix2 p k) * x3 (ix2 k j))
            + x4 (ix2 (0 : Fin 1) j)) (fun j c => x5 (ix2 j c)) (fun c => x6 (ix2 (0 : Fin 1) c)) c := by
  unfold k2_pay1 headRow dense
  refine congrArg₂ (· + ·) ?_
    ((broadcastTo_1b_ab_apply _ broadcasts_S1x10_S500x10 p c).trans (congrFun (shapeCast_self x6 _) _))
  refine (plainMM_of_eq dot_S500x64_S64x10_S500x10_1_0_0_1_n_n rfl none _ _ p c).trans ?_
  refine Finset.sum_congr rfl fun j _ => congrArg (· * x5 (ix2 j c)) ?_
  refine congrArg₂ max ?_ Ideal.ofBits_zero_f32
  refine congrArg₂ (· + ·) (congrArg₂ (· + ·) ?_ ?_)
    ((broadcastTo_1b_ab_apply _ broadcasts_S1x64_S500x64 p j).trans (congrFun (shapeCast_self x4 _) _))
  · refine (plainMM_of_eq dot_S500x128_S128x64_S500x64_1_0_0_1_n_n rfl none _ _ p j).trans ?_
    rw [shapeCast_self, shapeCast_self]
    rfl
  · refine (plainMM_of_eq dot_S500x128_S128x64_S500x64_1_0_0_1_n_n rfl none _ _ p j).trans ?_
    rw [shapeCast_self, shapeCast_self]
    rfl

/-! ## The bodies as functions of the block index -/

/-- The first convolution's block: row (y 0) of the staged rows through `conv1Row`, at column (y 1). -/
def conv1Block (x0 : FVec Ideal S5000x128 .f32) (x1 : FVec Ideal S128x128 .f32) (x2 x3 x4 x5 x6 : FVec Ideal S1x128 .f32)
    (x7 : FVec Ideal S128x128 .f32) (x8 : FVec Ideal S1x128 .f32) : FVec Ideal S5000x128 .f32 :=
  fun y => conv1Row (scaleK x3 x6) (fun l => x0 (ix2 (y 0) l)) (fun l k => x1 (ix2 l k)) (fun k => x2 (ix2 (0 : Fin 1) k))
    (fun k => x5 (ix2 (0 : Fin 1) k)) (fun k => x4 (ix2 (0 : Fin 1) k)) (fun k j => x7 (ix2 k j))
    (fun j => x8 (ix2 (0 : Fin 1) j)) (y 1)

theorem conv1_fun (x0 : FVec Ideal S5000x128 .f32) (x1 : FVec Ideal S128x128 .f32) (x2 x3 x4 x5 x6 : FVec Ideal S1x128 .f32)
    (x7 : FVec Ideal S128x128 .f32) (x8 : FVec Ideal S1x128 .f32) :
    k0_pay1 (F := Ideal) (k0_pay2 x0 x1 x2 x3 x4 x5 x6 x7) (k0_pay3 x8) = conv1Block x0 x1 x2 x3 x4 x5 x6 x7 x8 := by
  funext y
  obtain ⟨q, j, rfl⟩ : ∃ (q : Fin 5000) (j : Fin 128), y = ix2 q j := ⟨y 0, y 1, eq_ix2 y⟩
  exact conv1_apply x0 x1 x2 x3 x4 x5 x6 x7 x8 q j

/-- The second convolution's block. -/
def conv2Block (x0 : FVec Ideal S5000x128 .f32) (x1 : FVec Ideal S128x128 .f32) (x2 x3 x4 x5 x6 : FVec Ideal S1x128 .f32)
    (x7 : FVec Ideal S128x128 .f32) (x8 : FVec Ideal S1x128 .f32) : FVec Ideal S5000x128 .f32 :=
  fun y => conv2Row (scaleK x3 x6) (fun l => x0 (ix2 (y 0) l)) (fun l k => x1 (ix2 l k)) (fun k => x2 (ix2 (0 : Fin 1) k))
    (fun k => x5 (ix2 (0 : Fin 1) k)) (fun k => x4 (ix2 (0 : Fin 1) k)) (fun k j => x7 (ix2 k j))
    (fun j => x8 (ix2 (0 : Fin 1) j)) (y 1)

theorem conv2_fun (x0 : FVec Ideal S5000x128 .f32) (x1 : FVec Ideal S128x128 .f32) (x2 x3 x4 x5 x6 : FVec Ideal S1x128 .f32)
    (x7 : FVec Ideal S128x128 .f32) (x8 : FVec Ideal S1x128 .f32) :
    k1_pay1 (F := Ideal) (k1_pay2 x0 x1 x2 x3 x4 x5 x6 x7) (k1_pay3 x8) = conv2Block x0 x1 x2 x3 x4 x5 x6 x7 x8 := by
  funext y
  obtain ⟨q, j, rfl⟩ : ∃ (q : Fin 5000) (j : Fin 128), y = ix2 q j := ⟨y 0, y 1, eq_ix2 y⟩
  exact conv2_apply x0 x1 x2 x3 x4 x5 x6 x7 x8 q j

/-- The head's block. -/
def headBlock (x0 x1 : FVec Ideal S500x128 .f32) (x2 x3 : FVec Ideal S128x64 .f32) (x4 : FVec Ideal S1x64 .f32)
    (x5 : FVec Ideal S64x10 .f32) (x6 : FVec Ideal S1x10 .f32) : FVec Ideal S500x10 .f32 :=
  fun y => headRow (fun j => ((∑ k : Fin 128, x0 (ix2 (y 0) k) * x2 (ix2 k j)) + ∑ k : Fin 128, x1 (ix2 (y 0) k) * x3 (ix2 k j))
      + x4 (ix2 (0 : Fin 1) j)) (fun j c => x5 (ix2 j c)) (fun c => x6 (ix2 (0 : Fin 1) c)) (y 1)

theorem head_fun (x0 x1 : FVec Ideal S500x128 .f32) (x2 x3 : FVec Ideal S128x64 .f32) (x4 : FVec Ideal S1x64 .f32)
    (x5 : FVec Ideal S64x10 .f32) (x6 : FVec Ideal S1x10 .f32) :
    k2_pay1 (F := Ideal) x0 x1 x2 x3 x4 x5 x6 = headBlock x0 x1 x2 x3 x4 x5 x6 := by
  funext y
  obtain ⟨q, c, rfl⟩ : ∃ (q : Fin 500) (c : Fin 10), y = ix2 q c := ⟨y 0, y 1, eq_ix2 y⟩
  exact head_apply x0 x1 x2 x3 x4 x5 x6 q c

end Cert.KernelIdeal.Bodies

end
-- ==== Proof.Conv1Array.lean ====
/-
  The first convolution's launch: from blocks to the whole array.

  The launch has ten grid points. Point t stages rows 5000 t .. 5000 t + 4999 of the aggregated features, and the
  whole of every weight array (their block index is 0 at every point), runs the body, and writes the block back to
  the same rows of the output. The body's block at (q, j) is `conv1Row` of row q of the staged rows; row q of the
  staged rows is row 5000 t + q of the array. So what point t writes back is block t of ONE array-level function
  (`convArr`: row r of the output is `conv1Row` of row r of the input), and the ten blocks tile the 50000 rows, so
  the output array after the launch is that function of the arrays as the launch found them.
-/
import proofs.«172484_j23390391894890_2_alg».proof.Proof.Gen.KernelIdeal.Frame
import proofs.«172484_j23390391894890_2_alg».proof.Proof.Bodies

set_option maxRecDepth 16384

noncomputable section

open scoped BigOperators

namespace Cert.KernelIdeal.Conv1

open Cert.KernelIdeal Cert.KernelIdeal.Gen Cert.KernelIdeal.Bodies
open Idealize.ShloMosaic Idealize.ShloMosaic.TcCoe Idealize.ShloMosaic.ValueIdx Cert.GinRows Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row r of the output is `conv1Row` of row r of the input; the parameters are [1, 128] rows. -/
def convArr (A : FVec Ideal S50000x128 .f32) (Wa : FVec Ideal S128x128 .f32) (ba g be mu v : FVec Ideal S1x128 .f32)
    (Wb : FVec Ideal S128x128 .f32) (bb : FVec Ideal S1x128 .f32) : FVec Ideal S50000x128 .f32 :=
  fun i => conv1Row (scaleK g v) (fun l => A (ix2 (i 0) l)) (fun l k => Wa (ix2 l k)) (fun k => ba (ix2 (0 : Fin 1) k))
    (fun k => mu (ix2 (0 : Fin 1) k)) (fun k => be (ix2 (0 : Fin 1) k)) (fun k j => Wb (ix2 k j))
    (fun j => bb (ix2 (0 : Fin 1) j)) (i 1)

/-- The printed index maps over the ten points: the feature window and the output window are at block (t, 0), every
    weight window at block (0, 0). -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every one of the ten row blocks is some point's. -/
theorem idx_onto : ∀ q0 : Fin 10, ∃ t : Fin cfg0.N, win0_9.index t = ![q0.val, 0] :=
  (by decide +kernel : ∀ q0 : Fin 10, ∃ t : Fin grid0.N, win0_9.index t = ![q0.val, 0])

/-- Every weight window stages the whole of its array at every point. -/
theorem stages (c : Dev nD) (t : Fin cfg0.N) :
    iblk0 V c 1 t = V c main_arg3 ∧ iblk0 V c 2 t = V c main_v15 ∧ iblk0 V c 3 t = V c main_v16
    ∧ iblk0 V c 4 t = V c main_v17 ∧ iblk0 V c 5 t = V c main_v18 ∧ iblk0 V c 6 t = V c main_v19
    ∧ iblk0 V c 7 t = V c main_arg9 ∧ iblk0 V c 8 t = V c main_v20 := by
  obtain ⟨e00, e01, e90, e91, e10, e11, e20, e21, e30, e31, e40, e41, e50, e51, e60, e61, e70, e71, e80, e81⟩ := idx_facts t
  have hw1 : iblk0 V c 1 t = V c main_arg3 := funext fun y => congrArg (V c main_arg3) (funext fun a => Fin.ext (by
    match a with
    | ⟨0, _⟩ => show win0_1.index t (0 : Fin 2) * 128 + 1 * (y 0).val = (y 0).val; omega
    | ⟨1, _⟩ => show win0_1.index t (1 : Fin 2) * 128 + 1 * (y 1).val = (y 1).val; omega))
  have hw7 : iblk0 V c 7 t = V c main_arg9 := funext fun y => congrArg (V c main_arg9) (funext fun a => Fin.ext (by
    match a with
    | ⟨0, _⟩ => show win0_7.index t (0 : Fin 2) * 128 + 1 * (y 0).val = (y 0).val; omega
    | ⟨1, _⟩ => show win0_7.index t (1 : Fin 2) * 128 + 1 * (y 1).val = (y 1).val; omega))
  have hw2 : iblk0 V c 2 t = V c main_v15 := funext fun y => congrArg (V c main_v15) (funext fun a => Fin.ext (by
    match a with
    | ⟨0, _⟩ => show win0_2.index t (0 : Fin 2) * 1 + 1 * (y 0).val = (y 0).val; omega
    | ⟨1, _⟩ => show win0_2.index t (1 : Fin 2) * 128 + 1 * (y 1).val = (y 1).val; omega))
  have hw3 : iblk0 V c 3 t = V c main_v16 := funext fun y => congrArg (V c main_v16) (funext fun a => Fin.ext (by
    match a with
    | ⟨0, _⟩ => show win0_3.index t (0 : Fin 2) * 1 + 1 * (y 0).val = (y 0).val; omega
    | ⟨1, _⟩ => show win0_3.index t (1 : Fin 2) * 128 + 1 * (y 1).val = (y 1).val; omega))
  have hw4 : iblk0 V c 4 t = V c main_v17 := funext fun y => congrArg (V c main_v17) (funext fun a => Fin.ext (by
    match a with
    | ⟨0, _⟩ => show win0_4.index t (0 : Fin 2) * 1 + 1 * (y 0).val = (y 0).val; omega
    | ⟨1, _⟩ => show win0_4.index t (1 : Fin 2) * 128 + 1 * (y 1).val = (y 1).val; omega))
  have hw5 : iblk0 V c 5 t = V c main_v18 := funext fun y => congrArg (V c main_v18) (funext fun a => Fin.ext (by
    match a with
    | ⟨0, _⟩ => show win0_5.index t (0 : Fin 2) * 1 + 1 * (y 0).val = (y 0).val; omega
    | ⟨1, _⟩ => show win0_5.index t (1 : Fin 2) * 128 + 1 * (y 1).val = (y 1).val; omega))
  have hw6 : iblk0 V c 6 t = V c main_v19 := funext fun y => congrArg (V c main_v19) (funext fun a => Fin.ext (by
    match a with
    | ⟨0, _⟩ => show win0_6.index t (0 : Fin 2) * 1 + 1 * (y 0).val = (y 0).val; omega
    | ⟨1, _⟩ => show win0_6.index t (1 : Fin 2) * 128 + 1 * (y 1).val = (y 1).val; omega))
  have hw8 : iblk0 V c 8 t = V c main_v20 := funext fun y => congrArg (V c main_v20) (funext fun a => Fin.ext (by
    match a with
    | ⟨0, _⟩ => show win0_8.index t (0 : Fin 2) * 1 + 1 * (y 0).val = (y 0).val; omega
    | ⟨1, _⟩ => show win0_8.index t (1 : Fin 2) * 128 + 1 * (y 1).val = (y 1).val; omega))
  exact ⟨hw1, hw2, hw3, hw4, hw5, hw6, hw7, hw8⟩

/-- What point t writes back is block t of `convArr` of the arrays as the launch found them. -/
theorem flushed_eq (c : Dev nD) (t : Fin cfg0.N) :
    (dat0 V c).flushed 9 t = ((cfg0.win 9).blk t).view.read (Elt Ideal)
      (convArr (V c main_v14) (V c main_arg3) (V c main_v15) (V c main_v16) (V c main_v17) (V c main_v18) (V c main_v19)
        (V c main_arg9) (V c main_v20)) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x128) hz, View.ld_unit_zero (S := S1x128) hz]
  obtain ⟨e00, e01, e90, e91, e10, e11, e20, e21, e30, e31, e40, e41, e50, e51, e60, e61, e70, e71, e80, e81⟩ := idx_facts t
  have ht : t.val < 10 := lt_of_lt_of_eq t.isLt N_0
  obtain ⟨hw1, hw2, hw3, hw4, hw5, hw6, hw7, hw8⟩ := stages V c t
  refine (congrArg ((cfg0.win 9).cut (grid0.coords t))
    (conv1_fun (iblk0 V c 0 t) (iblk0 V c 1 t) (iblk0 V c 2 t) (iblk0 V c 3 t) (iblk0 V c 4 t) (iblk0 V c 5 t)
      (iblk0 V c 6 t) (iblk0 V c 7 t) (iblk0 V c 8 t))).trans ?_
  funext y
  show conv1Block (iblk0 V c 0 t) (iblk0 V c 1 t) (iblk0 V c 2 t) (iblk0 V c 3 t) (iblk0 V c 4 t) (iblk0 V c 5 t)
      (iblk0 V c 6 t) (iblk0 V c 7 t) (iblk0 V c 8 t) ((cfg0.win 9).xinj (grid0.coords t) y)
    = convArr (V c main_v14) (V c main_arg3) (V c main_v15) (V c main_v16) (V c main_v17) (V c main_v18) (V c main_v19)
        (V c main_arg9) (V c main_v20) (((cfg0.win 9).blk t).view.emb y)
  unfold conv1Block convArr
  -- the same row function on both sides: its rows, weights and columns agree one by one
  refine conv1Row_congr (congrArg₂ scaleK hw3 hw6) ?_ (congrArg (fun f => fun l k => f (ix2 l k)) hw1)
    (congrArg (fun f => fun k => f (ix2 (0 : Fin 1) k)) hw2) (congrArg (fun f => fun k => f (ix2 (0 : Fin 1) k)) hw5)
    (congrArg (fun f => fun k => f (ix2 (0 : Fin 1) k)) hw4) (congrArg (fun f => fun k j => f (ix2 k j)) hw7)
    (congrArg (fun f => fun j => f (ix2 (0 : Fin 1) j)) hw8) ?_
  · -- row (y 0) of the staged rows is row 5000 t + (y 0) of the array
    funext l
    exact congrArg (V c main_v14) (funext fun a => Fin.ext (by
      match a with
      | ⟨0, _⟩ => show win0_0.index t (0 : Fin 2) * 5000 + 1 * (y 0).val = win0_9.index t (0 : Fin 2) * 5000 + 1 * (y 0).val; omega
      | ⟨1, _⟩ => show win0_0.index t (1 : Fin 2) * 128 + 1 * l.val = l.val; omega))
  · exact Fin.ext (show (y 1).val = win0_9.index t (1 : Fin 2) * 128 + 1 * (y 1).val by omega)

/-- An index of the output array is in point t's block iff each coordinate is in the block's range. -/
theorem mem_blk (t : Fin cfg0.N) (i : S50000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v21).slice (win0_9.rect t)).set ↔ _
  rw [View.set_slice_whole, Rect.mem_set_unit]
  exact Iff.rfl

/-- The ten blocks cover the output array: row r lies in the block of point r / 5000. -/
theorem cover (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  obtain ⟨t, ht⟩ := idx_onto ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- The output array after the launch: `convArr` of the arrays as the launch found them. -/
theorem final (c : Dev nD) : (dat0 V c).arrAt 9 cfg0.N
    = convArr (V c main_v14) (V c main_arg3) (V c main_v15) (V c main_v16) (V c main_v17) (V c main_v18) (V c main_v19)
        (V c main_arg9) (V c main_v20) :=
  (dat0 V c).arrAt_eq_of_cover 9 _ (fun t _ => flushed_eq V c t) cover

end Cert.KernelIdeal.Conv1

end
-- ==== Proof.Conv2Array.lean ====
/-
  The second convolution's launch: from blocks to the whole array.

  The same tiling as the first launch: ten grid points, point t staging rows 5000 t .. 5000 t + 4999 of the
  aggregated hidden features and the whole of every weight array, and writing its block back to the same rows of
  the output. The body's block at (q, j) is `conv2Row` of row q of the staged rows, so the output array after the
  launch is `convArr` (row r of the output is `conv2Row` of row r of the input) of the arrays as the launch found
  them.
-/
import proofs.«172484_j23390391894890_2_alg».proof.Proof.Gen.KernelIdeal.Frame
import proofs.«172484_j23390391894890_2_alg».proof.Proof.Bodies

set_option maxRecDepth 16384

noncomputable section

open scoped BigOperators

namespace Cert.KernelIdeal.Conv2

open Cert.KernelIdeal Cert.KernelIdeal.Gen Cert.KernelIdeal.Bodies
open Idealize.ShloMosaic Idealize.ShloMosaic.TcCoe Idealize.ShloMosaic.ValueIdx Cert.GinRows Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row r of the output is `conv2Row` of row r of the input; the parameters are [1, 128] rows. -/
def convArr (A : FVec Ideal S50000x128 .f32) (Wa : FVec Ideal S128x128 .f32) (ba g be mu v : FVec Ideal S1x128 .f32)
    (Wb : FVec Ideal S128x128 .f32) (bb : FVec Ideal S1x128 .f32) : FVec Ideal S50000x128 .f32 :=
  fun i => conv2Row (scaleK g v) (fun l => A (ix2 (i 0) l)) (fun l k => Wa (ix2 l k)) (fun k => ba (ix2 (0 : Fin 1) k))
    (fun k => mu (ix2 (0 : Fin 1) k)) (fun k => be (ix2 (0 : Fin 1) k)) (fun k j => Wb (ix2 k j))
    (fun j => bb (ix2 (0 : Fin 1) j)) (i 1)

/-- The printed index maps over the ten points: the feature window and the output window are at block (t, 0), every
    weight window at block (0, 0). -/
theorem idx_facts : ∀ t : Fin cfg1.N,
    win1_0.index t (0 : Fin 2) = t.val ∧ win1_0.index t (1 : Fin 2) = 0
    ∧ win1_9.index t (0 : Fin 2) = t.val ∧ win1_9.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Every one of the ten row blocks is some point's. -/
theorem idx_onto : ∀ q0 : Fin 10, ∃ t : Fin cfg1.N, win1_9.index t = ![q0.val, 0] :=
  (by decide +kernel : ∀ q0 : Fin 10, ∃ t : Fin grid1.N, win1_9.index t = ![q0.val, 0])

/-- Every weight window stages the whole of its array at every point. -/
theorem stages (c : Dev nD) (t : Fin cfg1.N) :
    iblk1 V c 1 t = V c main_arg11 ∧ iblk1 V c 2 t = V c main_v33 ∧ iblk1 V c 3 t = V c main_v34
    ∧ iblk1 V c 4 t = V c main_v35 ∧ iblk1 V c 5 t = V c main_v36 ∧ iblk1 V c 6 t = V c main_v37
    ∧ iblk1 V c 7 t = V c main_arg17 ∧ iblk1 V c 8 t = V c main_v38 := by
  obtain ⟨e00, e01, e90, e91, e10, e11, e20, e21, e30, e31, e40, e41, e50, e51, e60, e61, e70, e71, e80, e81⟩ := idx_facts t
  have hw1 : iblk1 V c 1 t = V c main_arg11 := funext fun y => congrArg (V c main_arg11) (funext fun a => Fin.ext (by
    match a with
    | ⟨0, _⟩ => show win1_1.index t (0 : Fin 2) * 128 + 1 * (y 0).val = (y 0).val; omega
    | ⟨1, _⟩ => show win1_1.index t (1 : Fin 2) * 128 + 1 * (y 1).val = (y 1).val; omega))
  have hw7 : iblk1 V c 7 t = V c main_arg17 := funext fun y => congrArg (V c main_arg17) (funext fun a => Fin.ext (by
    match a with
    | ⟨0, _⟩ => show win1_7.index t (0 : Fin 2) * 128 + 1 * (y 0).val = (y 0).val; omega
    | ⟨1, _⟩ => show win1_7.index t (1 : Fin 2) * 128 + 1 * (y 1).val = (y 1).val; omega))
  have hw2 : iblk1 V c 2 t = V c main_v33 := funext fun y => congrArg (V c main_v33) (funext fun a => Fin.ext (by
    match a with
    | ⟨0, _⟩ => show win1_2.index t (0 : Fin 2) * 1 + 1 * (y 0).val = (y 0).val; omega
    | ⟨1, _⟩ => show win1_2.index t (1 : Fin 2) * 128 + 1 * (y 1).val = (y 1).val; omega))
  have hw3 : iblk1 V c 3 t = V c main_v34 := funext fun y => congrArg (V c main_v34) (funext fun a => Fin.ext (by
    match a with
    | ⟨0, _⟩ => show win1_3.index t (0 : Fin 2) * 1 + 1 * (y 0).val = (y 0).val; omega
    | ⟨1, _⟩ => show win1_3.index t (1 : Fin 2) * 128 + 1 * (y 1).val = (y 1).val; omega))
  have hw4 : iblk1 V c 4 t = V c main_v35 := funext fun y => congrArg (V c main_v35) (funext fun a => Fin.ext (by
    match a with
    | ⟨0, _⟩ => show win1_4.index t (0 : Fin 2) * 1 + 1 * (y 0).val = (y 0).val; omega
    | ⟨1, _⟩ => show win1_4.index t (1 : Fin 2) * 128 + 1 * (y 1).val = (y 1).val; omega))
  have hw5 : iblk1 V c 5 t = V c main_v36 := funext fun y => congrArg (V c main_v36) (funext fun a => Fin.ext (by
    match a with
    | ⟨0, _⟩ => show win1_5.index t (0 : Fin 2) * 1 + 1 * (y 0).val = (y 0).val; omega
    | ⟨1, _⟩ => show win1_5.index t (1 : Fin 2) * 128 + 1 * (y 1).val = (y 1).val; omega))
  have hw6 : iblk1 V c 6 t = V c main_v37 := funext fun y => congrArg (V c main_v37) (funext fun a => Fin.ext (by
    match a with
    | ⟨0, _⟩ => show win1_6.index t (0 : Fin 2) * 1 + 1 * (y 0).val = (y 0).val; omega
    | ⟨1, _⟩ => show win1_6.index t (1 : Fin 2) * 128 + 1 * (y 1).val = (y 1).val; omega))
  have hw8 : iblk1 V c 8 t = V c main_v38 := funext fun y => congrArg (V c main_v38) (funext fun a => Fin.ext (by
    match a with
    | ⟨0, _⟩ => show win1_8.index t (0 : Fin 2) * 1 + 1 * (y 0).val = (y 0).val; omega
    | ⟨1, _⟩ => show win1_8.index t (1 : Fin 2) * 128 + 1 * (y 1).val = (y 1).val; omega))
  exact ⟨hw1, hw2, hw3, hw4, hw5, hw6, hw7, hw8⟩

/-- What point t writes back is block t of `convArr` of the arrays as the launch found them. -/
theorem flushed_eq (c : Dev nD) (t : Fin cfg1.N) :
    (dat1 V c).flushed 9 t = ((cfg1.win 9).blk t).view.read (Elt Ideal)
      (convArr (V c main_v32) (V c main_arg11) (V c main_v33) (V c main_v34) (V c main_v35) (V c main_v36) (V c main_v37)
        (V c main_arg17) (V c main_v38)) := by
  show (cfg1.win 9).cut (grid1.coords t) ((dat1 V c).after 9 t) = _
  rw [after1_9]
  unfold out1_9
  rw [View.canon_unit_zero hz]
  simp only [View.ld_unit_zero (S := S5000x128) hz, View.ld_unit_zero (S := S128x128) hz, View.ld_unit_zero (S := S1x128) hz]
  obtain ⟨e00, e01, e90, e91, e10, e11, e20, e21, e30, e31, e40, e41, e50, e51, e60, e61, e70, e71, e80, e81⟩ := idx_facts t
  have ht : t.val < 10 := lt_of_lt_of_eq t.isLt N_1
  obtain ⟨hw1, hw2, hw3, hw4, hw5, hw6, hw7, hw8⟩ := stages V c t
  refine (congrArg ((cfg1.win 9).cut (grid1.coords t))
    (conv2_fun (iblk1 V c 0 t) (iblk1 V c 1 t) (iblk1 V c 2 t) (iblk1 V c 3 t) (iblk1 V c 4 t) (iblk1 V c 5 t)
      (iblk1 V c 6 t) (iblk1 V c 7 t) (iblk1 V c 8 t))).trans ?_
  funext y
  show conv2Block (iblk1 V c 0 t) (iblk1 V c 1 t) (iblk1 V c 2 t) (iblk1 V c 3 t) (iblk1 V c 4 t) (iblk1 V c 5 t)
      (iblk1 V c 6 t) (iblk1 V c 7 t) (iblk1 V c 8 t) ((cfg1.win 9).xinj (grid1.coords t) y)
    = convArr (V c main_v32) (V c main_arg11) (V c main_v33) (V c main_v34) (V c main_v35) (V c main_v36) (V c main_v37)
        (V c main_arg17) (V c main_v38) (((cfg1.win 9).blk t).view.emb y)
  unfold conv2Block convArr
  -- the same row function on both sides: its rows, weights and columns agree one by one
  refine conv2Row_congr (congrArg₂ scaleK hw3 hw6) ?_ (congrArg (fun f => fun l k => f (ix2 l k)) hw1)
    (congrArg (fun f => fun k => f (ix2 (0 : Fin 1) k)) hw2) (congrArg (fun f => fun k => f (ix2 (0 : Fin 1) k)) hw5)
    (congrArg (fun f => fun k => f (ix2 (0 : Fin 1) k)) hw4) (congrArg (fun f => fun k j => f (ix2 k j)) hw7)
    (congrArg (fun f => fun j => f (ix2 (0 : Fin 1) j)) hw8) ?_
  · -- row (y 0) of the staged rows is row 5000 t + (y 0) of the array
    funext l
    exact congrArg (V c main_v32) (funext fun a => Fin.ext (by
      match a with
      | ⟨0, _⟩ => show win1_0.index t (0 : Fin 2) * 5000 + 1 * (y 0).val = win1_9.index t (0 : Fin 2) * 5000 + 1 * (y 0).val; omega
      | ⟨1, _⟩ => show win1_0.index t (1 : Fin 2) * 128 + 1 * l.val = l.val; omega))
  · exact Fin.ext (show (y 1).val = win1_9.index t (1 : Fin 2) * 128 + 1 * (y 1).val by omega)

/-- An index of the output array is in point t's block iff each coordinate is in the block's range. -/
theorem mem_blk (t : Fin cfg1.N) (i : S50000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v39).slice (win1_9.rect t)).set ↔ _
  rw [View.set_slice_whole, Rect.mem_set_unit]
  exact Iff.rfl

/-- The ten blocks cover the output array: row r lies in the block of point r / 5000. -/
theorem cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ := idx_onto ⟨(i 0).val / 5000, by omega⟩
  have q0 : win1_9.index t (0 : Fin 2) = (i 0).val / 5000 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- The output array after the launch: `convArr` of the arrays as the launch found them. -/
theorem final (c : Dev nD) : (dat1 V c).arrAt 9 cfg1.N
    = convArr (V c main_v32) (V c main_arg11) (V c main_v33) (V c main_v34) (V c main_v35) (V c main_v36) (V c main_v37)
        (V c main_arg17) (V c main_v38) :=
  (dat1 V c).arrAt_eq_of_cover 9 _ (fun t _ => flushed_eq V c t) cover

end Cert.KernelIdeal.Conv2

end
-- ==== Proof.HeadArray.lean ====
/-
  The head's launch: one grid point, every window staging its whole array.

  The two pooled arrays, the two halves of the first weight matrix, the bias rows and the second weight matrix are
  each one block at block index (0, 0); the body's block is the whole [500, 10] output. So the output array after
  the launch is the body's block function (`headBlock`) of the arrays as the launch found them.
-/
import proofs.«172484_j23390391894890_2_alg».proof.Proof.Gen.KernelIdeal.Frame
import proofs.«172484_j23390391894890_2_alg».proof.Proof.Bodies

set_option maxRecDepth 16384

noncomputable section

open scoped BigOperators

namespace Cert.KernelIdeal.Head

open Cert.KernelIdeal Cert.KernelIdeal.Gen Cert.KernelIdeal.Bodies
open Idealize.ShloMosaic Idealize.ShloMosaic.TcCoe Idealize.ShloMosaic.ValueIdx Cert.GinRows Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps at the one point: every window is at block (0, 0). -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Every input window stages the whole of its array. -/
theorem stages (c : Dev nD) (t : Fin cfg2.N) :
    iblk2 V c 0 t = V c main_v42 ∧ iblk2 V c 1 t = V c main_v45 ∧ iblk2 V c 2 t = V c main_v46 ∧ iblk2 V c 3 t = V c main_v47
    ∧ iblk2 V c 4 t = V c main_v48 ∧ iblk2 V c 5 t = V c main_arg21 ∧ iblk2 V c 6 t = V c main_v49 := by
  obtain ⟨e00, e01, e10, e11, e20, e21, e30, e31, e40, e41, e50, e51, e60, e61, e70, e71⟩ := idx_facts t
  have hw0 : iblk2 V c 0 t = V c main_v42 := funext fun y => congrArg (V c main_v42) (funext fun a => Fin.ext (by
    match a with
    | ⟨0, _⟩ => show win2_0.index t (0 : Fin 2) * 500 + 1 * (y 0).val = (y 0).val; omega
    | ⟨1, _⟩ => show win2_0.index t (1 : Fin 2) * 128 + 1 * (y 1).val = (y 1).val; omega))
  have hw1 : iblk2 V c 1 t = V c main_v45 := funext fun y => congrArg (V c main_v45) (funext fun a => Fin.ext (by
    match a with
    | ⟨0, _⟩ => show win2_1.index t (0 : Fin 2) * 500 + 1 * (y 0).val = (y 0).val; omega
    | ⟨1, _⟩ => show win2_1.index t (1 : Fin 2) * 128 + 1 * (y 1).val = (y 1).val; omega))
  have hw2 : iblk2 V c 2 t = V c main_v46 := funext fun y => congrArg (V c main_v46) (funext fun a => Fin.ext (by
    match a with
    | ⟨0, _⟩ => show win2_2.index t (0 : Fin 2) * 128 + 1 * (y 0).val = (y 0).val; omega
    | ⟨1, _⟩ => show win2_2.index t (1 : Fin 2) * 64 + 1 * (y 1).val = (y 1).val; omega))
  have hw3 : iblk2 V c 3 t = V c main_v47 := funext fun y => congrArg (V c main_v47) (funext fun a => Fin.ext (by
    match a with
    | ⟨0, _⟩ => show win2_3.index t (0 : Fin 2) * 128 + 1 * (y 0).val = (y 0).val; omega
    | ⟨1, _⟩ => show win2_3.index t (1 : Fin 2) * 64 + 1 * (y 1).val = (y 1).val; omega))
  have hw4 : iblk2 V c 4 t = V c main_v48 := funext fun y => congrArg (V c main_v48) (funext fun a => Fin.ext (by
    match a with
    | ⟨0, _⟩ => show win2_4.index t (0 : Fin 2) * 1 + 1 * (y 0).val = (y 0).val; omega
    | ⟨1, _⟩ => show win2_4.index t (1 : Fin 2) * 64 + 1 * (y 1).val = (y 1).val; omega))
  have hw5 : iblk2 V c 5 t = V c main_arg21 := funext fun y => congrArg (V c main_arg21) (funext fun a => Fin.ext (by
    match a with
    | ⟨0, _⟩ => show win2_5.index t (0 : Fin 2) * 64 + 1 * (y 0).val = (y 0).val; omega
    | ⟨1, _⟩ => show win2_5.index t (1 : Fin 2) * 10 + 1 * (y 1).val = (y 1).val; omega))
  have hw6 : iblk2 V c 6 t = V c main_v49 := funext fun y => congrArg (V c main_v49) (funext fun a => Fin.ext (by
    match a with
    | ⟨0, _⟩ => show win2_6.index t (0 : Fin 2) * 1 + 1 * (y 0).val = (y 0).val; omega
    | ⟨1, _⟩ => show win2_6.index t (1 : Fin 2) * 10 + 1 * (y 1).val = (y 1).val; omega))
  exact ⟨hw0, hw1, hw2, hw3, hw4, hw5, hw6⟩

/-- What the one point writes back is the whole of `headBlock` of the arrays as the launch found them. -/
theorem flushed_eq (c : Dev nD) (t : Fin cfg2.N) :
    (dat2 V c).flushed 7 t = ((cfg2.win 7).blk t).view.read (Elt Ideal)
      (headBlock (V c main_v42) (V c main_v45) (V c main_v46) (V c main_v47) (V c main_v48) (V c main_arg21) (V c main_v49)) := by
  show (cfg2.win 7).cut (grid2.coords t) ((dat2 V c).after 7 t) = _
  rw [after2_7]
  unfold out2_7
  rw [View.canon_unit_zero hz]
  simp only [View.ld_unit_zero (S := S500x128) hz, View.ld_unit_zero (S := S128x64) hz, View.ld_unit_zero (S := S1x64) hz,
    View.ld_unit_zero (S := S64x10) hz, View.ld_unit_zero (S := S1x10) hz]
  obtain ⟨e00, e01, e10, e11, e20, e21, e30, e31, e40, e41, e50, e51, e60, e61, e70, e71⟩ := idx_facts t
  obtain ⟨hw0, hw1, hw2, hw3, hw4, hw5, hw6⟩ := stages V c t
  refine (congrArg ((cfg2.win 7).cut (grid2.coords t))
    (head_fun (iblk2 V c 0 t) (iblk2 V c 1 t) (iblk2 V c 2 t) (iblk2 V c 3 t) (iblk2 V c 4 t) (iblk2 V c 5 t) (iblk2 V c 6 t))).trans ?_
  funext y
  show headBlock (iblk2 V c 0 t) (iblk2 V c 1 t) (iblk2 V c 2 t) (iblk2 V c 3 t) (iblk2 V c 4 t) (iblk2 V c 5 t) (iblk2 V c 6 t)
      ((cfg2.win 7).xinj (grid2.coords t) y)
    = headBlock (V c main_v42) (V c main_v45) (V c main_v46) (V c main_v47) (V c main_v48) (V c main_arg21) (V c main_v49)
        (((cfg2.win 7).blk t).view.emb y)
  have e0 : ((cfg2.win 7).xinj (grid2.coords t) y) 0 = (((cfg2.win 7).blk t).view.emb y) 0 :=
    Fin.ext (show (y 0).val = win2_7.index t (0 : Fin 2) * 500 + 1 * (y 0).val by omega)
  have e1 : ((cfg2.win 7).xinj (grid2.coords t) y) 1 = (((cfg2.win 7).blk t).view.emb y) 1 :=
    Fin.ext (show (y 1).val = win2_7.index t (1 : Fin 2) * 10 + 1 * (y 1).val by omega)
  unfold headBlock
  refine headRow_congr ?_ (congrArg (fun f => fun j c => f (ix2 j c)) hw5)
    (congrArg (fun f => fun c => f (ix2 (0 : Fin 1) c)) hw6) e1
  rw [hw0, hw1, hw2, hw3, hw4, e0]

/-- An index of the output array is in the point's block iff each coordinate is in the block's range. -/
theorem mem_blk (t : Fin cfg2.N) (i : S500x10.Idx) :
    i ∈ ((cfg2.win 7).blk t).view.set ↔ ∀ a : Fin 2, win2_7.index t a * S500x10.size a ≤ (i a).val
      ∧ (i a).val < win2_7.index t a * S500x10.size a + S500x10.size a := by
  show i ∈ ((View.whole main_v50).slice (win2_7.rect t)).set ↔ _
  rw [View.set_slice_whole, Rect.mem_set_unit]
  exact Iff.rfl

/-- The one block covers the output array. -/
theorem cover (i : S500x10.Idx) :
    ∃ t : Fin cfg2.N, (cfg2.win 7).flush t = true ∧ i ∈ ((cfg2.win 7).blk t).view.set := by
  have hi0 : (i 0).val < 500 := (i 0).isLt
  have hi1 : (i 1).val < 10 := (i 1).isLt
  obtain ⟨e00, e01, e10, e11, e20, e21, e30, e31, e40, e41, e50, e51, e60, e61, e70, e71⟩ := idx_facts t2_0
  refine ⟨t2_0, flush2_7 t2_0, ?_⟩
  rw [mem_blk]
  intro a
  match a with
  | ⟨0, _⟩ => show win2_7.index t2_0 (0 : Fin 2) * 500 ≤ (i 0).val ∧ (i 0).val < win2_7.index t2_0 (0 : Fin 2) * 500 + 500; omega
  | ⟨1, _⟩ => show win2_7.index t2_0 (1 : Fin 2) * 10 ≤ (i 1).val ∧ (i 1).val < win2_7.index t2_0 (1 : Fin 2) * 10 + 10; omega

/-- The output array after the launch: `headBlock` of the arrays as the launch found them. -/
theorem final (c : Dev nD) : (dat2 V c).arrAt 7 cfg2.N
    = headBlock (V c main_v42) (V c main_v45) (V c main_v46) (V c main_v47) (V c main_v48) (V c main_arg21) (V c main_v49) :=
  (dat2 V c).arrAt_eq_of_cover 7 _ (fun t _ => flushed_eq V c t) cover

end Cert.KernelIdeal.Head

end
-- ==== Proof.RefLayers.lean ====
/-
  The reference's layers, read as the row functions of the specification.

  The reference computes each layer with whole-array operations: a product with a weight matrix, a bias vector
  repeated down the rows, the normalisation's affine map with the scale gamma / sqrt (variance + eps) computed once
  per column, and the maximum with zero. Read at entry (p, j), each stage is the corresponding piece of
  `conv1Row` / `conv2Row` / `headRow` of row p of the layer's input; the gathers and scatters between the layers
  are not opened: a layer's input is whatever array the stage before it produced.
-/
import proofs.«172484_j23390391894890_2_alg».proof.Proof.Gen.ReferenceIdeal.Read
import proofs.«172484_j23390391894890_2_alg».proof.Proof.Rows
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Layers

open Cert.ReferenceIdeal Cert.ReferenceIdeal.Read
open Idealize.ShloMosaic Idealize.ShloMosaic.ValueIdx Cert.GinRows

/-- The scale of column k as the reference spells it, from the vectors of gamma and of the variance. -/
def scaleR (g v : FVec Ideal S128 .f32) (k : Fin 128) : EReal :=
  Ideal.div (g (ix1 k)) (Ideal.sqrt (v (ix1 k) + Ideal.ofBits .f32 0x3727C5AC#32))

/-! ## The first convolution's perceptron -/

section Conv1

variable (x0 : FVec Ideal S50000x128 .f32) (x1 : IVec S2x600000 32) (x3 : FVec Ideal S128x128 .f32)
  (x4 x5 x6 x7 x8 : FVec Ideal S128 .f32) (x9 : FVec Ideal S128x128 .f32) (x10 : FVec Ideal S128 .f32)

/-- The first bias vector repeated down the rows, at (p, k). -/
theorem bias1a_apply (p : Fin 50000) (k : Fin 128) : val_main_v17 (F := Ideal) x4 (ix2 p k) = x4 (ix1 k) := by
  rw [val_main_v17_apply, val_main_v16_apply]
  exact congrArg x4 (funext fun a => Fin.ext (by match a with | ⟨0, _⟩ => rfl))

/-- The running mean repeated down the rows, at (p, k). -/
theorem mean1_apply (p : Fin 50000) (k : Fin 128) : val_main_v20 (F := Ideal) x7 (ix2 p k) = x7 (ix1 k) := by
  rw [val_main_v20_apply, val_main_v19_apply]
  exact congrArg x7 (funext fun a => Fin.ext (by match a with | ⟨0, _⟩ => rfl))

/-- Beta repeated down the rows, at (p, k). -/
theorem beta1_apply (p : Fin 50000) (k : Fin 128) : val_main_v30 (F := Ideal) x6 (ix2 p k) = x6 (ix1 k) := by
  rw [val_main_v30_apply, val_main_v29_apply]
  exact congrArg x6 (funext fun a => Fin.ext (by match a with | ⟨0, _⟩ => rfl))

/-- The second bias vector repeated down the rows, at (p, j). -/
theorem bias1b_apply (p : Fin 50000) (j : Fin 128) : val_main_v35 (F := Ideal) x10 (ix2 p j) = x10 (ix1 j) := by
  rw [val_main_v35_apply, val_main_v34_apply]
  exact congrArg x10 (funext fun a => Fin.ext (by match a with | ⟨0, _⟩ => rfl))

/-- The scale vector gamma / sqrt (variance + eps) repeated down the rows, at (p, k). -/
theorem scale1_apply (p : Fin 50000) (k : Fin 128) : val_main_v27 (F := Ideal) x5 x8 (ix2 p k) = scaleR x5 x8 k := by
  rw [val_main_v27_apply, val_main_v26_apply, val_main_v25_apply, val_main_v24_apply, val_main_v23_apply,
    val_main_v22_apply, val_main_cst_1_apply]
  have e : idx_main_v26 (idx_main_v27 (ix2 p k)) = ix1 k := funext fun a => Fin.ext (by match a with | ⟨0, _⟩ => rfl)
  rw [e]
  rfl

/-- The zero the first cut compares with. -/
theorem zero0_apply (i : S50000x128.Idx) : val_main_call0_v0 (F := Ideal) i = 0 := by
  rw [val_main_call0_v0_apply, val_main_call0_cst_apply]
  exact Ideal.ofBits_zero_f32

/-- The zero the second cut compares with. -/
theorem zero1_apply (i : S50000x128.Idx) : val_main_call1_v0 (F := Ideal) i = 0 := by
  rw [val_main_call1_v0_apply, val_main_call1_cst_apply]
  exact Ideal.ofBits_zero_f32

/-- The aggregated features times the first weight matrix, at (p, k). -/
theorem prod1a_apply (p : Fin 50000) (k : Fin 128) :
    val_main_v15 (F := Ideal) x0 x1 x3 (ix2 p k) = ∑ l : Fin 128, val_main_v14 (F := Ideal) x0 x1 (ix2 p l) * x3 (ix2 l k) :=
  (val_main_v15_apply x0 x1 x3 (ix2 p k)).trans (Finset.sum_congr rfl fun l _ => congrArg₂ (· * ·)
    (congrArg (val_main_v14 (F := Ideal) x0 x1) (funext fun a => Fin.ext (by match a with | ⟨0, _⟩ => rfl | ⟨1, _⟩ => rfl)))
    (congrArg x3 (funext fun a => Fin.ext (by match a with | ⟨0, _⟩ => rfl | ⟨1, _⟩ => rfl))))

/-- The hidden activation at (p, k): dense, normalise, cut at zero. -/
theorem hidden1_apply (p : Fin 50000) (k : Fin 128) :
    val_main_v32 (F := Ideal) x0 x1 x3 x4 x5 x6 x7 x8 (ix2 p k)
      = max (norm (dense (fun l => val_main_v14 (F := Ideal) x0 x1 (ix2 p l)) (fun l k => x3 (ix2 l k)) (fun k => x4 (ix1 k)) k)
          (x7 (ix1 k)) (scaleR x5 x8 k) (x6 (ix1 k))) 0 :=
  congrArg₂ max
    (congrArg₂ (· + ·)
      (congrArg₂ (· * ·)
        (congrArg₂ (· - ·) (congrArg₂ (· + ·) (prod1a_apply x0 x1 x3 p k) (bias1a_apply x4 p k)) (mean1_apply x7 p k))
        (scale1_apply x5 x8 p k))
      (beta1_apply x6 p k))
    (zero0_apply (ix2 p k))

/-- The first convolution's output at (p, j): `conv1Row` of row p of the aggregated features. -/
theorem conv1_apply (p : Fin 50000) (j : Fin 128) :
    val_main_v37 (F := Ideal) x0 x1 x3 x4 x5 x6 x7 x8 x9 x10 (ix2 p j)
      = conv1Row (scaleR x5 x8) (fun l => val_main_v14 (F := Ideal) x0 x1 (ix2 p l)) (fun l k => x3 (ix2 l k))
          (fun k => x4 (ix1 k)) (fun k => x7 (ix1 k)) (fun k => x6 (ix1 k)) (fun k j => x9 (ix2 k j)) (fun j => x10 (ix1 j)) j :=
  congrArg₂ max
    (congrArg₂ (· + ·)
      ((val_main_v33_apply x0 x1 x3 x4 x5 x6 x7 x8 x9 (ix2 p j)).trans (Finset.sum_congr rfl fun k _ => congrArg₂ (· * ·)
        ((congrArg (val_main_v32 (F := Ideal) x0 x1 x3 x4 x5 x6 x7 x8)
          (funext fun a => Fin.ext (by match a with | ⟨0, _⟩ => rfl | ⟨1, _⟩ => rfl))).trans (hidden1_apply x0 x1 x3 x4 x5 x6 x7 x8 p k))
        (congrArg x9 (funext fun a => Fin.ext (by match a with | ⟨0, _⟩ => rfl | ⟨1, _⟩ => rfl)))))
      (bias1b_apply x10 p j))
    (zero1_apply (ix2 p j))

end Conv1

/-! ## The second convolution's perceptron -/

section Conv2

variable (x0 : FVec Ideal S50000x128 .f32) (x1 : IVec S2x600000 32) (x3 : FVec Ideal S128x128 .f32)
  (x4 x5 x6 x7 x8 : FVec Ideal S128 .f32) (x9 : FVec Ideal S128x128 .f32) (x10 : FVec Ideal S128 .f32)
  (x11 : FVec Ideal S128x128 .f32) (x12 x13 x14 x15 x16 : FVec Ideal S128 .f32) (x17 : FVec Ideal S128x128 .f32)
  (x18 : FVec Ideal S128 .f32)

theorem bias2a_apply (p : Fin 50000) (k : Fin 128) : val_main_v51 (F := Ideal) x12 (ix2 p k) = x12 (ix1 k) := by
  rw [val_main_v51_apply, val_main_v50_apply]
  exact congrArg x12 (funext fun a => Fin.ext (by match a with | ⟨0, _⟩ => rfl))

theorem mean2_apply (p : Fin 50000) (k : Fin 128) : val_main_v55 (F := Ideal) x15 (ix2 p k) = x15 (ix1 k) := by
  rw [val_main_v55_apply, val_main_v54_apply]
  exact congrArg x15 (funext fun a => Fin.ext (by match a with | ⟨0, _⟩ => rfl))

theorem beta2_apply (p : Fin 50000) (k : Fin 128) : val_main_v65 (F := Ideal) x14 (ix2 p k) = x14 (ix1 k) := by
  rw [val_main_v65_apply, val_main_v64_apply]
  exact congrArg x14 (funext fun a => Fin.ext (by match a with | ⟨0, _⟩ => rfl))

theorem bias2b_apply (p : Fin 50000) (j : Fin 128) : val_main_v69 (F := Ideal) x18 (ix2 p j) = x18 (ix1 j) := by
  rw [val_main_v69_apply, val_main_v68_apply]
  exact congrArg x18 (funext fun a => Fin.ext (by match a with | ⟨0, _⟩ => rfl))

theorem scale2_apply (p : Fin 50000) (k : Fin 128) : val_main_v62 (F := Ideal) x13 x16 (ix2 p k) = scaleR x13 x16 k := by
  rw [val_main_v62_apply, val_main_v61_apply, val_main_v60_apply, val_main_v59_apply, val_main_v58_apply,
    val_main_v57_apply, val_main_cst_5_apply]
  have e : idx_main_v61 (idx_main_v62 (ix2 p k)) = ix1 k := funext fun a => Fin.ext (by match a with | ⟨0, _⟩ => rfl)
  rw [e]
  rfl

theorem zero2_apply (i : S50000x128.Idx) : val_main_call2_v0 (F := Ideal) i = 0 := by
  rw [val_main_call2_v0_apply, val_main_call2_cst_apply]
  exact Ideal.ofBits_zero_f32

theorem zero3_apply (i : S50000x128.Idx) : val_main_call3_v0 (F := Ideal) i = 0 := by
  rw [val_main_call3_v0_apply, val_main_call3_cst_apply]
  exact Ideal.ofBits_zero_f32

/-- The aggregated hidden features times the first weight matrix, at (p, k). -/
theorem prod2a_apply (p : Fin 50000) (k : Fin 128) :
    val_main_v49 (F := Ideal) x0 x1 x3 x4 x5 x6 x7 x8 x9 x10 x11 (ix2 p k)
      = ∑ l : Fin 128, val_main_v48 (F := Ideal) x0 x1 x3 x4 x5 x6 x7 x8 x9 x10 (ix2 p l) * x11 (ix2 l k) :=
  (val_main_v49_apply x0 x1 x3 x4 x5 x6 x7 x8 x9 x10 x11 (ix2 p k)).trans (Finset.sum_congr rfl fun l _ => congrArg₂ (· * ·)
    (congrArg (val_main_v48 (F := Ideal) x0 x1 x3 x4 x5 x6 x7 x8 x9 x10) (funext fun a => Fin.ext (by match a with | ⟨0, _⟩ => rfl | ⟨1, _⟩ => rfl)))
    (congrArg x11 (funext fun a => Fin.ext (by match a with | ⟨0, _⟩ => rfl | ⟨1, _⟩ => rfl))))

/-- The hidden activation at (p, k): dense, cut at zero, normalise. -/
theorem hidden2_apply (p : Fin 50000) (k : Fin 128) :
    val_main_v66 (F := Ideal) x0 x1 x3 x4 x5 x6 x7 x8 x9 x10 x11 x12 x13 x14 x15 x16 (ix2 p k)
      = norm (max (dense (fun l => val_main_v48 (F := Ideal) x0 x1 x3 x4 x5 x6 x7 x8 x9 x10 (ix2 p l)) (fun l k => x11 (ix2 l k))
          (fun k => x12 (ix1 k)) k) 0) (x15 (ix1 k)) (scaleR x13 x16 k) (x14 (ix1 k)) :=
  congrArg₂ (· + ·)
    (congrArg₂ (· * ·)
      (congrArg₂ (· - ·)
        (congrArg₂ max (congrArg₂ (· + ·) (prod2a_apply x0 x1 x3 x4 x5 x6 x7 x8 x9 x10 x11 p k) (bias2a_apply x12 p k)) (zero2_apply (ix2 p k)))
        (mean2_apply x15 p k))
      (scale2_apply x13 x16 p k))
    (beta2_apply x14 p k)

/-- The second convolution's output at (p, j): `conv2Row` of row p of the aggregated hidden features. -/
theorem conv2_apply (p : Fin 50000) (j : Fin 128) :
    val_main_v71 (F := Ideal) x0 x1 x3 x4 x5 x6 x7 x8 x9 x10 x11 x12 x13 x14 x15 x16 x17 x18 (ix2 p j)
      = conv2Row (scaleR x13 x16) (fun l => val_main_v48 (F := Ideal) x0 x1 x3 x4 x5 x6 x7 x8 x9 x10 (ix2 p l)) (fun l k => x11 (ix2 l k))
          (fun k => x12 (ix1 k)) (fun k => x15 (ix1 k)) (fun k => x14 (ix1 k)) (fun k j => x17 (ix2 k j)) (fun j => x18 (ix1 j)) j :=
  congrArg₂ max
    (congrArg₂ (· + ·)
      ((val_main_v67_apply x0 x1 x3 x4 x5 x6 x7 x8 x9 x10 x11 x12 x13 x14 x15 x16 x17 (ix2 p j)).trans (Finset.sum_congr rfl fun k _ => congrArg₂ (· * ·)
        ((congrArg (val_main_v66 (F := Ideal) x0 x1 x3 x4 x5 x6 x7 x8 x9 x10 x11 x12 x13 x14 x15 x16) (funext fun a => Fin.ext (by match a with | ⟨0, _⟩ => rfl | ⟨1, _⟩ => rfl))).trans
          (hidden2_apply x0 x1 x3 x4 x5 x6 x7 x8 x9 x10 x11 x12 x13 x14 x15 x16 p k))
        (congrArg x17 (funext fun a => Fin.ext (by match a with | ⟨0, _⟩ => rfl | ⟨1, _⟩ => rfl)))))
      (bias2b_apply x18 p j))
    (zero3_apply (ix2 p j))

end Conv2

/-! ## The head -/

section Head

variable (x0 : FVec Ideal S50000x128 .f32) (x1 : IVec S2x600000 32) (x2 : IVec S50000 32) (x3 : FVec Ideal S128x128 .f32)
  (x4 x5 x6 x7 x8 : FVec Ideal S128 .f32) (x9 : FVec Ideal S128x128 .f32) (x10 : FVec Ideal S128 .f32)
  (x11 : FVec Ideal S128x128 .f32) (x12 x13 x14 x15 x16 : FVec Ideal S128 .f32) (x17 : FVec Ideal S128x128 .f32)
  (x18 : FVec Ideal S128 .f32) (x19 : FVec Ideal S256x64 .f32) (x20 : FVec Ideal S64 .f32) (x21 : FVec Ideal S64x10 .f32)
  (x22 : FVec Ideal S10 .f32)

theorem biasl1_apply (p : Fin 500) (j : Fin 64) : val_main_v81 (F := Ideal) x20 (ix2 p j) = x20 (ix1 j) := by
  rw [val_main_v81_apply, val_main_v80_apply]
  exact congrArg x20 (funext fun a => Fin.ext (by match a with | ⟨0, _⟩ => rfl))

theorem biasl2_apply (p : Fin 500) (c : Fin 10) : val_main_v86 (F := Ideal) x22 (ix2 p c) = x22 (ix1 c) := by
  rw [val_main_v86_apply, val_main_v85_apply]
  exact congrArg x22 (funext fun a => Fin.ext (by match a with | ⟨0, _⟩ => rfl))

theorem zero4_apply (i : S500x64.Idx) : val_main_call4_v0 (F := Ideal) i = 0 := by
  rw [val_main_call4_v0_apply, val_main_call4_cst_apply]
  exact Ideal.ofBits_zero_f32

/-- The pooled features side by side times the first weight matrix, at (p, j). -/
theorem prodl1_apply (p : Fin 500) (j : Fin 64) :
    val_main_v79 (F := Ideal) x0 x1 x2 x3 x4 x5 x6 x7 x8 x9 x10 x11 x12 x13 x14 x15 x16 x17 x18 x19 (ix2 p j)
      = ∑ k : Fin 256, val_main_v78 (F := Ideal) x0 x1 x2 x3 x4 x5 x6 x7 x8 x9 x10 x11 x12 x13 x14 x15 x16 x17 x18 (ix2 p k) * x19 (ix2 k j) :=
  (val_main_v79_apply x0 x1 x2 x3 x4 x5 x6 x7 x8 x9 x10 x11 x12 x13 x14 x15 x16 x17 x18 x19 (ix2 p j)).trans (Finset.sum_congr rfl fun k _ => congrArg₂ (· * ·)
    (congrArg (val_main_v78 (F := Ideal) x0 x1 x2 x3 x4 x5 x6 x7 x8 x9 x10 x11 x12 x13 x14 x15 x16 x17 x18) (funext fun a => Fin.ext (by match a with | ⟨0, _⟩ => rfl | ⟨1, _⟩ => rfl)))
    (congrArg x19 (funext fun a => Fin.ext (by match a with | ⟨0, _⟩ => rfl | ⟨1, _⟩ => rfl))))

/-- The head's output at (p, c): `headRow` of the first layer's pre-activation of pooled row p. -/
theorem head_apply (p : Fin 500) (c : Fin 10) :
    val_main_v87 (F := Ideal) x0 x1 x2 x3 x4 x5 x6 x7 x8 x9 x10 x11 x12 x13 x14 x15 x16 x17 x18 x19 x20 x21 x22 (ix2 p c)
      = headRow (fun j => (∑ k : Fin 256, val_main_v78 (F := Ideal) x0 x1 x2 x3 x4 x5 x6 x7 x8 x9 x10 x11 x12 x13 x14 x15 x16 x17 x18 (ix2 p k) * x19 (ix2 k j)) + x20 (ix1 j))
          (fun j c => x21 (ix2 j c)) (fun c => x22 (ix1 c)) c :=
  congrArg₂ (· + ·)
    ((val_main_v84_apply x0 x1 x2 x3 x4 x5 x6 x7 x8 x9 x10 x11 x12 x13 x14 x15 x16 x17 x18 x19 x20 x21 (ix2 p c)).trans (Finset.sum_congr rfl fun j _ => congrArg₂ (· * ·)
      ((congrArg (val_main_v83 (F := Ideal) x0 x1 x2 x3 x4 x5 x6 x7 x8 x9 x10 x11 x12 x13 x14 x15 x16 x17 x18 x19 x20) (funext fun a => Fin.ext (by match a with | ⟨0, _⟩ => rfl | ⟨1, _⟩ => rfl))).trans
        (congrArg₂ max (congrArg₂ (· + ·) (prodl1_apply x0 x1 x2 x3 x4 x5 x6 x7 x8 x9 x10 x11 x12 x13 x14 x15 x16 x17 x18 x19 p j) (biasl1_apply x20 p j)) (zero4_apply (ix2 p j))))
      (congrArg x21 (funext fun a => Fin.ext (by match a with | ⟨0, _⟩ => rfl | ⟨1, _⟩ => rfl)))))
    (biasl2_apply x22 p c)

end Head

end Cert.ReferenceIdeal.Layers

end
-- ==== Proof.KernelValue.lean ====
/-
  The value of the idealized kernel's result.

  The run's buffer contents are a fold through six segments (three stretches of array operations, each followed by
  a launch). Walking that fold forward from the launch memory, each array a later segment reads is identified with
  the REFERENCE's array at the same place in ITS program, as a function of the same arguments:

    * the first stretch's neighbour sum is the same operations on both sides;
    * the first launch leaves `conv1Row` of every row, with the scale spelt gamma * rsqrt (v + eps); the reference's
      stage is `conv1Row` of every row with the scale spelt gamma / sqrt (v + eps); for a variance >= 0 these agree;
    * the second stretch, the second launch and the two poolings go the same way;
    * the head's launch takes the two pooled arrays times the upper and the lower half of the first weight matrix
      and adds them, where the reference multiplies the two pooled arrays side by side with the whole matrix: a sum
      over 256 terms cut into its first and its last 128.

  So the result buffer at the end of the run holds the reference's result function of the kernel's own arguments.
-/
import proofs.«172484_j23390391894890_2_alg».proof.Proof.Gen.KernelIdeal.Frame
import proofs.«172484_j23390391894890_2_alg».proof.Proof.Gen.ReferenceIdeal.Read
import proofs.«172484_j23390391894890_2_alg».proof.Proof.Conv1Array
import proofs.«172484_j23390391894890_2_alg».proof.Proof.Conv2Array
import proofs.«172484_j23390391894890_2_alg».proof.Proof.HeadArray
import proofs.«172484_j23390391894890_2_alg».proof.Proof.RefLayers
import Idealize.ShloMosaic.Lib.StableHlo.Run
import Idealize.ShloMosaic.Lib.ValueLayout

set_option maxRecDepth 16384

noncomputable section

open scoped BigOperators

namespace Cert.KernelIdeal.Value

open Cert.KernelIdeal Cert.KernelIdeal.Gen
open Cert.ReferenceIdeal.Read Cert.ReferenceIdeal.Layers
open Idealize.ShloMosaic Idealize.ShloMosaic.TcCoe Idealize.ShloMosaic.ValueIdx Cert.GinRows Idealize.SL.Sem
open Idealize.ShloMosaic.StableHlo

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The two variance vectors as launched, as arrays of extended reals. -/
abbrev var1 : S128.Idx → EReal := arg m c main_arg8
abbrev var2 : S128.Idx → EReal := arg m c main_arg16

/-- A vector recast as a one-row matrix, read in its row. -/
theorem row_of_vec {n : ℕ} (x : (⟨1, ![n]⟩ : Shape).Idx → EReal) (h : (⟨1, ![n]⟩ : Shape).ShapeCasts ⟨2, ![1, n]⟩) (k : Fin n) :
    shapeCast ⟨2, ![1, n]⟩ x h (ix2 (0 : Fin 1) k) = x (ix1 k) :=
  shapeCast_a_1a_apply x h 0 k

/-! ## After the first stretch -/

/-- The neighbour sum of the input features: the same operations as the reference's. -/
theorem agg1 : (W1 m ρ c (Proc.devRef .tc main_v14) : S50000x128.Idx → EReal)
    = val_main_v14 (F := Ideal) (arg m c main_arg0) (arg m c main_arg1) := by
  show StableHlo.after hostOps0 (W0 m ρ c) (Proc.devRef .tc main_v14) = _
  dsimp only [hostOps0]
  after_results_simp
  rfl

/-- The sources of the edges, as the first stretch leaves them. -/
theorem src1 : (W1 m ρ c (Proc.devRef .tc main_v1) : S600000.Idx → BitVec 32) = val_main_v1 (F := Ideal) (arg m c main_arg1) := by
  show StableHlo.after hostOps0 (W0 m ρ c) (Proc.devRef .tc main_v1) = _
  dsimp only [hostOps0]
  after_results_simp
  rfl

/-- The targets of the edges, as the first stretch leaves them. -/
theorem dst1 : (W1 m ρ c (Proc.devRef .tc main_v3) : S600000.Idx → BitVec 32) = val_main_v3 (F := Ideal) (arg m c main_arg1) := by
  show StableHlo.after hostOps0 (W0 m ρ c) (Proc.devRef .tc main_v3) = _
  dsimp only [hostOps0]
  after_results_simp
  rfl

/-- The arguments are untouched by the first stretch. -/
theorem w1_arg2 : W1 m ρ c (Proc.devRef .tc main_arg2) = arg m c main_arg2 := by
  show StableHlo.after hostOps0 (W0 m ρ c) (Proc.devRef .tc main_arg2) = _
  dsimp only [hostOps0]
  after_results_simp
theorem w1_arg3 : W1 m ρ c (Proc.devRef .tc main_arg3) = arg m c main_arg3 := by
  show StableHlo.after hostOps0 (W0 m ρ c) (Proc.devRef .tc main_arg3) = _
  dsimp only [hostOps0]
  after_results_simp
theorem w1_arg9 : W1 m ρ c (Proc.devRef .tc main_arg9) = arg m c main_arg9 := by
  show StableHlo.after hostOps0 (W0 m ρ c) (Proc.devRef .tc main_arg9) = _
  dsimp only [hostOps0]
  after_results_simp
theorem w1_arg11 : W1 m ρ c (Proc.devRef .tc main_arg11) = arg m c main_arg11 := by
  show StableHlo.after hostOps0 (W0 m ρ c) (Proc.devRef .tc main_arg11) = _
  dsimp only [hostOps0]
  after_results_simp
theorem w1_arg12 : W1 m ρ c (Proc.devRef .tc main_arg12) = arg m c main_arg12 := by
  show StableHlo.after hostOps0 (W0 m ρ c) (Proc.devRef .tc main_arg12) = _
  dsimp only [hostOps0]
  after_results_simp
theorem w1_arg13 : W1 m ρ c (Proc.devRef .tc main_arg13) = arg m c main_arg13 := by
  show StableHlo.after hostOps0 (W0 m ρ c) (Proc.devRef .tc main_arg13) = _
  dsimp only [hostOps0]
  after_results_simp
theorem w1_arg14 : W1 m ρ c (Proc.devRef .tc main_arg14) = arg m c main_arg14 := by
  show StableHlo.after hostOps0 (W0 m ρ c) (Proc.devRef .tc main_arg14) = _
  dsimp only [hostOps0]
  after_results_simp
theorem w1_arg15 : W1 m ρ c (Proc.devRef .tc main_arg15) = arg m c main_arg15 := by
  show StableHlo.after hostOps0 (W0 m ρ c) (Proc.devRef .tc main_arg15) = _
  dsimp only [hostOps0]
  after_results_simp
theorem w1_arg16 : W1 m ρ c (Proc.devRef .tc main_arg16) = arg m c main_arg16 := by
  show StableHlo.after hostOps0 (W0 m ρ c) (Proc.devRef .tc main_arg16) = _
  dsimp only [hostOps0]
  after_results_simp
theorem w1_arg17 : W1 m ρ c (Proc.devRef .tc main_arg17) = arg m c main_arg17 := by
  show StableHlo.after hostOps0 (W0 m ρ c) (Proc.devRef .tc main_arg17) = _
  dsimp only [hostOps0]
  after_results_simp
theorem w1_arg18 : W1 m ρ c (Proc.devRef .tc main_arg18) = arg m c main_arg18 := by
  show StableHlo.after hostOps0 (W0 m ρ c) (Proc.devRef .tc main_arg18) = _
  dsimp only [hostOps0]
  after_results_simp
theorem w1_arg19 : W1 m ρ c (Proc.devRef .tc main_arg19) = arg m c main_arg19 := by
  show StableHlo.after hostOps0 (W0 m ρ c) (Proc.devRef .tc main_arg19) = _
  dsimp only [hostOps0]
  after_results_simp
theorem w1_arg20 : W1 m ρ c (Proc.devRef .tc main_arg20) = arg m c main_arg20 := by
  show StableHlo.after hostOps0 (W0 m ρ c) (Proc.devRef .tc main_arg20) = _
  dsimp only [hostOps0]
  after_results_simp
theorem w1_arg21 : W1 m ρ c (Proc.devRef .tc main_arg21) = arg m c main_arg21 := by
  show StableHlo.after hostOps0 (W0 m ρ c) (Proc.devRef .tc main_arg21) = _
  dsimp only [hostOps0]
  after_results_simp
theorem w1_arg22 : W1 m ρ c (Proc.devRef .tc main_arg22) = arg m c main_arg22 := by
  show StableHlo.after hostOps0 (W0 m ρ c) (Proc.devRef .tc main_arg22) = _
  dsimp only [hostOps0]
  after_results_simp

/-- The recast first bias row after the first stretch, read at column k. -/
theorem row1_v15 (k : Fin 128) : (W1 m ρ c (Proc.devRef .tc main_v15) : S1x128.Idx → EReal) (ix2 (0 : Fin 1) k) = arg m c main_arg4 (ix1 k) := by
  have e : (W1 m ρ c (Proc.devRef .tc main_v15) : S1x128.Idx → EReal) = shapeCast S1x128 (arg m c main_arg4) shapeCasts_S128_S1x128 := by
    show StableHlo.after hostOps0 (W0 m ρ c) (Proc.devRef .tc main_v15) = _
    dsimp only [hostOps0]
    after_results_simp
    rfl
  rw [e]
  exact row_of_vec _ _ k
/-- The recast gamma row after the first stretch, read at column k. -/
theorem row1_v16 (k : Fin 128) : (W1 m ρ c (Proc.devRef .tc main_v16) : S1x128.Idx → EReal) (ix2 (0 : Fin 1) k) = arg m c main_arg5 (ix1 k) := by
  have e : (W1 m ρ c (Proc.devRef .tc main_v16) : S1x128.Idx → EReal) = shapeCast S1x128 (arg m c main_arg5) shapeCasts_S128_S1x128 := by
    show StableHlo.after hostOps0 (W0 m ρ c) (Proc.devRef .tc main_v16) = _
    dsimp only [hostOps0]
    after_results_simp
    rfl
  rw [e]
  exact row_of_vec _ _ k
/-- The recast beta row after the first stretch, read at column k. -/
theorem row1_v17 (k : Fin 128) : (W1 m ρ c (Proc.devRef .tc main_v17) : S1x128.Idx → EReal) (ix2 (0 : Fin 1) k) = arg m c main_arg6 (ix1 k) := by
  have e : (W1 m ρ c (Proc.devRef .tc main_v17) : S1x128.Idx → EReal) = shapeCast S1x128 (arg m c main_arg6) shapeCasts_S128_S1x128 := by
    show StableHlo.after hostOps0 (W0 m ρ c) (Proc.devRef .tc main_v17) = _
    dsimp only [hostOps0]
    after_results_simp
    rfl
  rw [e]
  exact row_of_vec _ _ k
/-- The recast mean row after the first stretch, read at column k. -/
theorem row1_v18 (k : Fin 128) : (W1 m ρ c (Proc.devRef .tc main_v18) : S1x128.Idx → EReal) (ix2 (0 : Fin 1) k) = arg m c main_arg7 (ix1 k) := by
  have e : (W1 m ρ c (Proc.devRef .tc main_v18) : S1x128.Idx → EReal) = shapeCast S1x128 (arg m c main_arg7) shapeCasts_S128_S1x128 := by
    show StableHlo.after hostOps0 (W0 m ρ c) (Proc.devRef .tc main_v18) = _
    dsimp only [hostOps0]
    after_results_simp
    rfl
  rw [e]
  exact row_of_vec _ _ k
/-- The recast variance row after the first stretch, read at column k. -/
theorem row1_v19 (k : Fin 128) : (W1 m ρ c (Proc.devRef .tc main_v19) : S1x128.Idx → EReal) (ix2 (0 : Fin 1) k) = arg m c main_arg8 (ix1 k) := by
  have e : (W1 m ρ c (Proc.devRef .tc main_v19) : S1x128.Idx → EReal) = shapeCast S1x128 (arg m c main_arg8) shapeCasts_S128_S1x128 := by
    show StableHlo.after hostOps0 (W0 m ρ c) (Proc.devRef .tc main_v19) = _
    dsimp only [hostOps0]
    after_results_simp
    rfl
  rw [e]
  exact row_of_vec _ _ k
/-- The recast second bias row after the first stretch, read at column k. -/
theorem row1_v20 (k : Fin 128) : (W1 m ρ c (Proc.devRef .tc main_v20) : S1x128.Idx → EReal) (ix2 (0 : Fin 1) k) = arg m c main_arg10 (ix1 k) := by
  have e : (W1 m ρ c (Proc.devRef .tc main_v20) : S1x128.Idx → EReal) = shapeCast S1x128 (arg m c main_arg10) shapeCasts_S128_S1x128 := by
    show StableHlo.after hostOps0 (W0 m ρ c) (Proc.devRef .tc main_v20) = _
    dsimp only [hostOps0]
    after_results_simp
    rfl
  rw [e]
  exact row_of_vec _ _ k

/-! ## After the first launch -/

/-- The reference's arrays at the kernel's arguments: after the first convolution, after the second neighbour sum,
    after the second convolution, the two pooled arrays, and the result. -/
abbrev ref37 : S50000x128.Idx → EReal := val_main_v37 (F := Ideal) (arg m c main_arg0) (arg m c main_arg1) (arg m c main_arg3) (arg m c main_arg4) (arg m c main_arg5) (arg m c main_arg6) (arg m c main_arg7) (arg m c main_arg8) (arg m c main_arg9) (arg m c main_arg10)
abbrev ref48 : S50000x128.Idx → EReal := val_main_v48 (F := Ideal) (arg m c main_arg0) (arg m c main_arg1) (arg m c main_arg3) (arg m c main_arg4) (arg m c main_arg5) (arg m c main_arg6) (arg m c main_arg7) (arg m c main_arg8) (arg m c main_arg9) (arg m c main_arg10)
abbrev ref71 : S50000x128.Idx → EReal := val_main_v71 (F := Ideal) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18)
abbrev ref74 : S500x128.Idx → EReal := val_main_v74 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10)
abbrev ref77 : S500x128.Idx → EReal := val_main_v77 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18)
abbrev ref87 : S500x10.Idx → EReal := val_main_v87 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22)

/-- The first launch's output is the reference's first convolution, for a first variance >= 0. -/
theorem conv1_out (hv : ∀ k : Fin 128, 0 ≤ var1 m c (ix1 k)) :
    (W2 m ρ c (Proc.devRef .tc main_v21) : S50000x128.Idx → EReal) = ref37 m c := by
  refine (W2_arr m ρ c 9).trans ((Conv1.final (V1 m ρ) c).trans ?_)
  funext i
  obtain ⟨p, j, rfl⟩ : ∃ (p : Fin 50000) (j : Fin 128), i = ix2 p j := ⟨i 0, i 1, eq_ix2 i⟩
  refine Eq.trans ?_ (Cert.ReferenceIdeal.Layers.conv1_apply (arg m c main_arg0) (arg m c main_arg1) (arg m c main_arg3) (arg m c main_arg4) (arg m c main_arg5) (arg m c main_arg6) (arg m c main_arg7) (arg m c main_arg8) (arg m c main_arg9) (arg m c main_arg10) p j).symm
  unfold Conv1.convArr
  refine conv1Row_congr ?_ ?_ ?_ ?_ ?_ ?_ ?_ ?_ rfl
  · funext k
    unfold Bodies.scaleK scaleR
    exact (congrArg₂ (fun g v => g * Ideal.rsqrt (v + Ideal.ofBits .f32 0x3727C5AC#32))
      (row1_v16 m ρ c k) (row1_v19 m ρ c k)).trans (scale_eq _ _ (hv k))
  · funext l; exact congrFun (agg1 m ρ c) (ix2 p l)
  · funext l k; exact congrFun (w1_arg3 m ρ c) (ix2 l k)
  · funext k; exact row1_v15 m ρ c k
  · funext k; exact row1_v18 m ρ c k
  · funext k; exact row1_v17 m ρ c k
  · funext k j; exact congrFun (w1_arg9 m ρ c) (ix2 k j)
  · funext j; exact row1_v20 m ρ c j

/-- The arguments are untouched by the first launch. -/
theorem w2_arg2 : W2 m ρ c (Proc.devRef .tc main_arg2) = arg m c main_arg2 :=
  (W2_of_ne m ρ c main_arg2 (by decide)).trans (w1_arg2 m ρ c)
theorem w2_arg11 : W2 m ρ c (Proc.devRef .tc main_arg11) = arg m c main_arg11 :=
  (W2_of_ne m ρ c main_arg11 (by decide)).trans (w1_arg11 m ρ c)
theorem w2_arg12 : W2 m ρ c (Proc.devRef .tc main_arg12) = arg m c main_arg12 :=
  (W2_of_ne m ρ c main_arg12 (by decide)).trans (w1_arg12 m ρ c)
theorem w2_arg13 : W2 m ρ c (Proc.devRef .tc main_arg13) = arg m c main_arg13 :=
  (W2_of_ne m ρ c main_arg13 (by decide)).trans (w1_arg13 m ρ c)
theorem w2_arg14 : W2 m ρ c (Proc.devRef .tc main_arg14) = arg m c main_arg14 :=
  (W2_of_ne m ρ c main_arg14 (by decide)).trans (w1_arg14 m ρ c)
theorem w2_arg15 : W2 m ρ c (Proc.devRef .tc main_arg15) = arg m c main_arg15 :=
  (W2_of_ne m ρ c main_arg15 (by decide)).trans (w1_arg15 m ρ c)
theorem w2_arg16 : W2 m ρ c (Proc.devRef .tc main_arg16) = arg m c main_arg16 :=
  (W2_of_ne m ρ c main_arg16 (by decide)).trans (w1_arg16 m ρ c)
theorem w2_arg17 : W2 m ρ c (Proc.devRef .tc main_arg17) = arg m c main_arg17 :=
  (W2_of_ne m ρ c main_arg17 (by decide)).trans (w1_arg17 m ρ c)
theorem w2_arg18 : W2 m ρ c (Proc.devRef .tc main_arg18) = arg m c main_arg18 :=
  (W2_of_ne m ρ c main_arg18 (by decide)).trans (w1_arg18 m ρ c)
theorem w2_arg19 : W2 m ρ c (Proc.devRef .tc main_arg19) = arg m c main_arg19 :=
  (W2_of_ne m ρ c main_arg19 (by decide)).trans (w1_arg19 m ρ c)
theorem w2_arg20 : W2 m ρ c (Proc.devRef .tc main_arg20) = arg m c main_arg20 :=
  (W2_of_ne m ρ c main_arg20 (by decide)).trans (w1_arg20 m ρ c)
theorem w2_arg21 : W2 m ρ c (Proc.devRef .tc main_arg21) = arg m c main_arg21 :=
  (W2_of_ne m ρ c main_arg21 (by decide)).trans (w1_arg21 m ρ c)
theorem w2_arg22 : W2 m ρ c (Proc.devRef .tc main_arg22) = arg m c main_arg22 :=
  (W2_of_ne m ρ c main_arg22 (by decide)).trans (w1_arg22 m ρ c)

theorem w2_src : (W2 m ρ c (Proc.devRef .tc main_v1) : S600000.Idx → BitVec 32) = val_main_v1 (F := Ideal) (arg m c main_arg1) :=
  (W2_of_ne m ρ c main_v1 (by decide)).trans (src1 m ρ c)
theorem w2_dst : (W2 m ρ c (Proc.devRef .tc main_v3) : S600000.Idx → BitVec 32) = val_main_v3 (F := Ideal) (arg m c main_arg1) :=
  (W2_of_ne m ρ c main_v3 (by decide)).trans (dst1 m ρ c)

/-! ## After the second stretch -/

/-- The neighbour sum of the first convolution's output: the same operations as the reference's. -/
theorem agg2 (hv : ∀ k : Fin 128, 0 ≤ var1 m c (ix1 k)) :
    (W3 m ρ c (Proc.devRef .tc main_v32) : S50000x128.Idx → EReal) = ref48 m c := by
  show StableHlo.after hostOps1 (W2 m ρ c) (Proc.devRef .tc main_v32) = _
  dsimp only [hostOps1]
  after_results_simp
  rw [conv1_out m ρ c hv, w2_src m ρ c, w2_dst m ρ c]
  rfl

/-- The first convolution's output is still there after the second stretch. -/
theorem w3_h1 (hv : ∀ k : Fin 128, 0 ≤ var1 m c (ix1 k)) :
    (W3 m ρ c (Proc.devRef .tc main_v21) : S50000x128.Idx → EReal) = ref37 m c := by
  show StableHlo.after hostOps1 (W2 m ρ c) (Proc.devRef .tc main_v21) = _
  dsimp only [hostOps1]
  after_results_simp
  exact conv1_out m ρ c hv

theorem w3_arg2 : W3 m ρ c (Proc.devRef .tc main_arg2) = arg m c main_arg2 := by
  show StableHlo.after hostOps1 (W2 m ρ c) (Proc.devRef .tc main_arg2) = _
  dsimp only [hostOps1]
  after_results_simp
  exact w2_arg2 m ρ c
theorem w3_arg11 : W3 m ρ c (Proc.devRef .tc main_arg11) = arg m c main_arg11 := by
  show StableHlo.after hostOps1 (W2 m ρ c) (Proc.devRef .tc main_arg11) = _
  dsimp only [hostOps1]
  after_results_simp
  exact w2_arg11 m ρ c
theorem w3_arg17 : W3 m ρ c (Proc.devRef .tc main_arg17) = arg m c main_arg17 := by
  show StableHlo.after hostOps1 (W2 m ρ c) (Proc.devRef .tc main_arg17) = _
  dsimp only [hostOps1]
  after_results_simp
  exact w2_arg17 m ρ c
theorem w3_arg19 : W3 m ρ c (Proc.devRef .tc main_arg19) = arg m c main_arg19 := by
  show StableHlo.after hostOps1 (W2 m ρ c) (Proc.devRef .tc main_arg19) = _
  dsimp only [hostOps1]
  after_results_simp
  exact w2_arg19 m ρ c
theorem w3_arg20 : W3 m ρ c (Proc.devRef .tc main_arg20) = arg m c main_arg20 := by
  show StableHlo.after hostOps1 (W2 m ρ c) (Proc.devRef .tc main_arg20) = _
  dsimp only [hostOps1]
  after_results_simp
  exact w2_arg20 m ρ c
theorem w3_arg21 : W3 m ρ c (Proc.devRef .tc main_arg21) = arg m c main_arg21 := by
  show StableHlo.after hostOps1 (W2 m ρ c) (Proc.devRef .tc main_arg21) = _
  dsimp only [hostOps1]
  after_results_simp
  exact w2_arg21 m ρ c
theorem w3_arg22 : W3 m ρ c (Proc.devRef .tc main_arg22) = arg m c main_arg22 := by
  show StableHlo.after hostOps1 (W2 m ρ c) (Proc.devRef .tc main_arg22) = _
  dsimp only [hostOps1]
  after_results_simp
  exact w2_arg22 m ρ c

/-- The recast first bias row after the second stretch, read at column k. -/
theorem row3_v33 (k : Fin 128) : (W3 m ρ c (Proc.devRef .tc main_v33) : S1x128.Idx → EReal) (ix2 (0 : Fin 1) k) = arg m c main_arg12 (ix1 k) := by
  have e : (W3 m ρ c (Proc.devRef .tc main_v33) : S1x128.Idx → EReal) = shapeCast S1x128 (arg m c main_arg12) shapeCasts_S128_S1x128 := by
    show StableHlo.after hostOps1 (W2 m ρ c) (Proc.devRef .tc main_v33) = _
    dsimp only [hostOps1]
    after_results_simp
    rw [w2_arg12 m ρ c]
    rfl
  rw [e]
  exact row_of_vec _ _ k
/-- The recast gamma row after the second stretch, read at column k. -/
theorem row3_v34 (k : Fin 128) : (W3 m ρ c (Proc.devRef .tc main_v34) : S1x128.Idx → EReal) (ix2 (0 : Fin 1) k) = arg m c main_arg13 (ix1 k) := by
  have e : (W3 m ρ c (Proc.devRef .tc main_v34) : S1x128.Idx → EReal) = shapeCast S1x128 (arg m c main_arg13) shapeCasts_S128_S1x128 := by
    show StableHlo.after hostOps1 (W2 m ρ c) (Proc.devRef .tc main_v34) = _
    dsimp only [hostOps1]
    after_results_simp
    rw [w2_arg13 m ρ c]
    rfl
  rw [e]
  exact row_of_vec _ _ k
/-- The recast beta row after the second stretch, read at column k. -/
theorem row3_v35 (k : Fin 128) : (W3 m ρ c (Proc.devRef .tc main_v35) : S1x128.Idx → EReal) (ix2 (0 : Fin 1) k) = arg m c main_arg14 (ix1 k) := by
  have e : (W3 m ρ c (Proc.devRef .tc main_v35) : S1x128.Idx → EReal) = shapeCast S1x128 (arg m c main_arg14) shapeCasts_S128_S1x128 := by
    show StableHlo.after hostOps1 (W2 m ρ c) (Proc.devRef .tc main_v35) = _
    dsimp only [hostOps1]
    after_results_simp
    rw [w2_arg14 m ρ c]
    rfl
  rw [e]
  exact row_of_vec _ _ k
/-- The recast mean row after the second stretch, read at column k. -/
theorem row3_v36 (k : Fin 128) : (W3 m ρ c (Proc.devRef .tc main_v36) : S1x128.Idx → EReal) (ix2 (0 : Fin 1) k) = arg m c main_arg15 (ix1 k) := by
  have e : (W3 m ρ c (Proc.devRef .tc main_v36) : S1x128.Idx → EReal) = shapeCast S1x128 (arg m c main_arg15) shapeCasts_S128_S1x128 := by
    show StableHlo.after hostOps1 (W2 m ρ c) (Proc.devRef .tc main_v36) = _
    dsimp only [hostOps1]
    after_results_simp
    rw [w2_arg15 m ρ c]
    rfl
  rw [e]
  exact row_of_vec _ _ k
/-- The recast variance row after the second stretch, read at column k. -/
theorem row3_v37 (k : Fin 128) : (W3 m ρ c (Proc.devRef .tc main_v37) : S1x128.Idx → EReal) (ix2 (0 : Fin 1) k) = arg m c main_arg16 (ix1 k) := by
  have e : (W3 m ρ c (Proc.devRef .tc main_v37) : S1x128.Idx → EReal) = shapeCast S1x128 (arg m c main_arg16) shapeCasts_S128_S1x128 := by
    show StableHlo.after hostOps1 (W2 m ρ c) (Proc.devRef .tc main_v37) = _
    dsimp only [hostOps1]
    after_results_simp
    rw [w2_arg16 m ρ c]
    rfl
  rw [e]
  exact row_of_vec _ _ k
/-- The recast second bias row after the second stretch, read at column k. -/
theorem row3_v38 (k : Fin 128) : (W3 m ρ c (Proc.devRef .tc main_v38) : S1x128.Idx → EReal) (ix2 (0 : Fin 1) k) = arg m c main_arg18 (ix1 k) := by
  have e : (W3 m ρ c (Proc.devRef .tc main_v38) : S1x128.Idx → EReal) = shapeCast S1x128 (arg m c main_arg18) shapeCasts_S128_S1x128 := by
    show StableHlo.after hostOps1 (W2 m ρ c) (Proc.devRef .tc main_v38) = _
    dsimp only [hostOps1]
    after_results_simp
    rw [w2_arg18 m ρ c]
    rfl
  rw [e]
  exact row_of_vec _ _ k

/-! ## After the second launch -/

/-- The second launch's output is the reference's second convolution, for both variances >= 0. -/
theorem conv2_out (hv1 : ∀ k : Fin 128, 0 ≤ var1 m c (ix1 k)) (hv2 : ∀ k : Fin 128, 0 ≤ var2 m c (ix1 k)) :
    (W4 m ρ c (Proc.devRef .tc main_v39) : S50000x128.Idx → EReal) = ref71 m c := by
  refine (W4_arr m ρ c 9).trans ((Conv2.final (V3 m ρ) c).trans ?_)
  funext i
  obtain ⟨p, j, rfl⟩ : ∃ (p : Fin 50000) (j : Fin 128), i = ix2 p j := ⟨i 0, i 1, eq_ix2 i⟩
  refine Eq.trans ?_ (Cert.ReferenceIdeal.Layers.conv2_apply (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) p j).symm
  unfold Conv2.convArr
  refine conv2Row_congr ?_ ?_ ?_ ?_ ?_ ?_ ?_ ?_ rfl
  · funext k
    unfold Bodies.scaleK scaleR
    exact (congrArg₂ (fun g v => g * Ideal.rsqrt (v + Ideal.ofBits .f32 0x3727C5AC#32))
      (row3_v34 m ρ c k) (row3_v37 m ρ c k)).trans (scale_eq _ _ (hv2 k))
  · funext l; exact congrFun (agg2 m ρ c hv1) (ix2 p l)
  · funext l k; exact congrFun (w3_arg11 m ρ c) (ix2 l k)
  · funext k; exact row3_v33 m ρ c k
  · funext k; exact row3_v36 m ρ c k
  · funext k; exact row3_v35 m ρ c k
  · funext k j; exact congrFun (w3_arg17 m ρ c) (ix2 k j)
  · funext j; exact row3_v38 m ρ c j

theorem w4_arg2 : W4 m ρ c (Proc.devRef .tc main_arg2) = arg m c main_arg2 :=
  (W4_of_ne m ρ c main_arg2 (by decide)).trans (w3_arg2 m ρ c)
theorem w4_arg19 : W4 m ρ c (Proc.devRef .tc main_arg19) = arg m c main_arg19 :=
  (W4_of_ne m ρ c main_arg19 (by decide)).trans (w3_arg19 m ρ c)
theorem w4_arg20 : W4 m ρ c (Proc.devRef .tc main_arg20) = arg m c main_arg20 :=
  (W4_of_ne m ρ c main_arg20 (by decide)).trans (w3_arg20 m ρ c)
theorem w4_arg21 : W4 m ρ c (Proc.devRef .tc main_arg21) = arg m c main_arg21 :=
  (W4_of_ne m ρ c main_arg21 (by decide)).trans (w3_arg21 m ρ c)
theorem w4_arg22 : W4 m ρ c (Proc.devRef .tc main_arg22) = arg m c main_arg22 :=
  (W4_of_ne m ρ c main_arg22 (by decide)).trans (w3_arg22 m ρ c)

theorem w4_h1 (hv : ∀ k : Fin 128, 0 ≤ var1 m c (ix1 k)) :
    (W4 m ρ c (Proc.devRef .tc main_v21) : S50000x128.Idx → EReal) = ref37 m c :=
  (W4_of_ne m ρ c main_v21 (by decide)).trans (w3_h1 m ρ c hv)

/-! ## After the third stretch -/

/-- The first pooled array: the same scatter-add as the reference's, of the same array. -/
theorem pool1 (hv1 : ∀ k : Fin 128, 0 ≤ var1 m c (ix1 k)) :
    (W5 m ρ c (Proc.devRef .tc main_v42) : S500x128.Idx → EReal) = ref74 m c := by
  show StableHlo.after hostOps2 (W4 m ρ c) (Proc.devRef .tc main_v42) = _
  dsimp only [hostOps2]
  after_results_simp
  rw [w4_h1 m ρ c hv1, w4_arg2 m ρ c]
  rfl

/-- The second pooled array. -/
theorem pool2 (hv1 : ∀ k : Fin 128, 0 ≤ var1 m c (ix1 k)) (hv2 : ∀ k : Fin 128, 0 ≤ var2 m c (ix1 k)) :
    (W5 m ρ c (Proc.devRef .tc main_v45) : S500x128.Idx → EReal) = ref77 m c := by
  show StableHlo.after hostOps2 (W4 m ρ c) (Proc.devRef .tc main_v45) = _
  dsimp only [hostOps2]
  after_results_simp
  rw [conv2_out m ρ c hv1 hv2, w4_arg2 m ρ c]
  rfl

theorem w5_arg21 : W5 m ρ c (Proc.devRef .tc main_arg21) = arg m c main_arg21 := by
  show StableHlo.after hostOps2 (W4 m ρ c) (Proc.devRef .tc main_arg21) = _
  dsimp only [hostOps2]
  after_results_simp
  exact w4_arg21 m ρ c

/-- The upper half of the head's first weight matrix. -/
theorem upper_apply (k : Fin 128) (j : Fin 64) :
    (W5 m ρ c (Proc.devRef .tc main_v46) : S128x64.Idx → EReal) (ix2 k j)
      = arg m c main_arg19 (ix2 (Fin.castAdd 128 k : Fin (128 + 128)) j) := by
  have e : (W5 m ρ c (Proc.devRef .tc main_v46) : S128x64.Idx → EReal)
      = extractStridedSlice S128x64 ![0, 0] (arg m c main_arg19) slices_S256x64_S128x64_0_0 := by
    show StableHlo.after hostOps2 (W4 m ρ c) (Proc.devRef .tc main_v46) = _
    dsimp only [hostOps2]
    after_results_simp
    rw [w4_arg19 m ρ c]
  rw [e]
  exact slice2_axis0_apply 0 _ _ k j (Fin.castAdd 128 k : Fin (128 + 128)) (by rw [Fin.coe_castAdd, Nat.zero_add])

/-- The lower half of the head's first weight matrix. -/
theorem lower_apply (k : Fin 128) (j : Fin 64) :
    (W5 m ρ c (Proc.devRef .tc main_v47) : S128x64.Idx → EReal) (ix2 k j)
      = arg m c main_arg19 (ix2 (Fin.natAdd 128 k : Fin (128 + 128)) j) := by
  have e : (W5 m ρ c (Proc.devRef .tc main_v47) : S128x64.Idx → EReal)
      = extractStridedSlice S128x64 ![128, 0] (arg m c main_arg19) slices_S256x64_S128x64_128_0 := by
    show StableHlo.after hostOps2 (W4 m ρ c) (Proc.devRef .tc main_v47) = _
    dsimp only [hostOps2]
    after_results_simp
    rw [w4_arg19 m ρ c]
  rw [e]
  exact slice2_axis0_apply 128 _ _ k j (Fin.natAdd 128 k : Fin (128 + 128)) (Fin.coe_natAdd 128 k)

/-- The head's first bias as a row, at column j. -/
theorem row5_v48 (j : Fin 64) : (W5 m ρ c (Proc.devRef .tc main_v48) : S1x64.Idx → EReal) (ix2 (0 : Fin 1) j) = arg m c main_arg20 (ix1 j) := by
  have e : (W5 m ρ c (Proc.devRef .tc main_v48) : S1x64.Idx → EReal) = shapeCast S1x64 (arg m c main_arg20) shapeCasts_S64_S1x64 := by
    show StableHlo.after hostOps2 (W4 m ρ c) (Proc.devRef .tc main_v48) = _
    dsimp only [hostOps2]
    after_results_simp
    rw [w4_arg20 m ρ c]
    rfl
  rw [e]
  exact row_of_vec _ _ j

/-- The head's second bias as a row, at column q. -/
theorem row5_v49 (q : Fin 10) : (W5 m ρ c (Proc.devRef .tc main_v49) : S1x10.Idx → EReal) (ix2 (0 : Fin 1) q) = arg m c main_arg22 (ix1 q) := by
  have e : (W5 m ρ c (Proc.devRef .tc main_v49) : S1x10.Idx → EReal) = shapeCast S1x10 (arg m c main_arg22) shapeCasts_S10_S1x10 := by
    show StableHlo.after hostOps2 (W4 m ρ c) (Proc.devRef .tc main_v49) = _
    dsimp only [hostOps2]
    after_results_simp
    rw [w4_arg22 m ρ c]
    rfl
  rw [e]
  exact row_of_vec _ _ q

/-! ## The result -/

/-- The reference's two pooled arrays side by side, read in the left and in the right half. -/
theorem side_left (p : Fin 500) (k : Fin 128) :
    val_main_v78 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (ix2 p (Fin.castAdd 128 k : Fin (128 + 128))) = ref74 m c (ix2 p k) := by
  unfold val_main_v78
  exact concatenate_pair_apply_left (t := Cert.ReferenceIdeal.S500x256) (s₁ := Cert.ReferenceIdeal.S500x128)
    (s₂ := Cert.ReferenceIdeal.S500x128) (1 : Fin 2) (ref74 m c) (ref77 m c) _
    (ix2 p (Fin.castAdd 128 k : Fin (128 + 128))) rfl (ix2 p k) (fun b => by match b with | ⟨0, _⟩ => rfl | ⟨1, _⟩ => rfl)

theorem side_right (p : Fin 500) (k : Fin 128) :
    val_main_v78 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (ix2 p (Fin.natAdd 128 k : Fin (128 + 128))) = ref77 m c (ix2 p k) := by
  unfold val_main_v78
  exact concatenate_pair_apply_right (t := Cert.ReferenceIdeal.S500x256) (s₁ := Cert.ReferenceIdeal.S500x128)
    (s₂ := Cert.ReferenceIdeal.S500x128) (1 : Fin 2) (ref74 m c) (ref77 m c) _
    (ix2 p (Fin.natAdd 128 k : Fin (128 + 128))) rfl rfl (ix2 p k)
    (fun b hb => by match b with | ⟨0, _⟩ => rfl | ⟨1, _⟩ => exact absurd rfl hb)
    (by have h := Fin.coe_natAdd 128 k; show k.val + 128 = (Fin.natAdd 128 k : Fin (128 + 128)).val; omega)

/-- THE RESULT: at the end of the run the result buffer holds the reference's result function of the kernel's own
    arguments, for both variances >= 0. -/
theorem result (hv1 : ∀ k : Fin 128, 0 ≤ var1 m c (ix1 k)) (hv2 : ∀ k : Fin 128, 0 ≤ var2 m c (ix1 k)) :
    (W6 m ρ c (Proc.devRef .tc main_v50) : S500x10.Idx → EReal) = ref87 m c := by
  refine (W6_arr m ρ c 7).trans ((Head.final (V5 m ρ) c).trans ?_)
  funext i
  obtain ⟨p, q, rfl⟩ : ∃ (p : Fin 500) (q : Fin 10), i = ix2 p q := ⟨i 0, i 1, eq_ix2 i⟩
  refine Eq.trans ?_ (Cert.ReferenceIdeal.Layers.head_apply (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) p q).symm
  unfold Bodies.headBlock
  refine headRow_congr ?_ ?_ ?_ rfl
  · funext j
    refine congrArg₂ (· + ·) ?_ (row5_v48 m ρ c j)
    refine Eq.trans ?_ (sum_halves (n := 128) fun k => val_main_v78 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (ix2 p k) * arg m c main_arg19 (ix2 k j)).symm
    refine congrArg₂ (· + ·) (Finset.sum_congr rfl fun k _ => ?_) (Finset.sum_congr rfl fun k _ => ?_)
    · exact congrArg₂ (· * ·) ((congrFun (pool1 m ρ c hv1) (ix2 p k)).trans (side_left m c p k).symm) (upper_apply m ρ c k j)
    · exact congrArg₂ (· * ·) ((congrFun (pool2 m ρ c hv1 hv2) (ix2 p k)).trans (side_right m c p k).symm) (lower_apply m ρ c k j)
  · funext j q; exact congrFun (w5_arg21 m ρ c) (ix2 j q)
  · funext q; exact row5_v49 m ρ c q

end Cert.KernelIdeal.Value

end
-- ==== Proof.Variance.lean ====
/-
  What the precondition says of the two variance vectors.

  The precondition is one conjunction of "every entry of this array satisfies ..." facts, evaluated to a single bit.
  Its last two conjuncts are "every entry of the first variance vector is >= 0" and the same for the second. A
  conjunction that evaluates to 1 has every conjunct at 1; an all-reduction by "and" that gives 1 met a 1 at every
  entry; and the comparison x >= 0 giving 1 on the extended reals is the order fact 0 <= x.
-/
import proofs.«172484_j23390391894890_2_alg».proof.Pre_finite_inputs
import Idealize.ShloMosaic.Lib.ReduceAll
import Idealize.ShloMosaic.Lib.ValueIdx
import Idealize.ShloMosaic.PureOps.Ideal.Laws

set_option maxRecDepth 16384

noncomputable section

namespace Cert.Variance

open Idealize.ShloMosaic Idealize.ShloMosaic.ValueIdx Cert.Pre_finite_inputs

instance : Subsingleton S_.Idx := ⟨fun a b => funext fun d => d.elim0⟩

/-- On the extended reals, the comparison "x >= y" giving the bit 1 is the order fact y <= x. -/
theorem le_of_oge {x y : EReal} (h : Ideal.cmp .oge x y = 1#1) : y ≤ x := by
  unfold Ideal.cmp at h
  by_contra hn
  simp [hn] at h

variable [Facts]

/-- Under the precondition every entry of both variance vectors is non-negative. -/
theorem nonneg_of_pre (a0 : FVec Ideal S50000x128 .f32) (a1 : IVec S2x600000 32) (a2 : IVec S50000 32)
    (a3 : FVec Ideal S128x128 .f32) (a4 a5 a6 a7 a8 : FVec Ideal S128 .f32) (a9 : FVec Ideal S128x128 .f32)
    (a10 : FVec Ideal S128 .f32) (a11 : FVec Ideal S128x128 .f32) (a12 a13 a14 a15 a16 : FVec Ideal S128 .f32)
    (a17 : FVec Ideal S128x128 .f32) (a18 : FVec Ideal S128 .f32) (a19 : FVec Ideal S256x64 .f32) (a20 : FVec Ideal S64 .f32)
    (a21 : FVec Ideal S64x10 .f32) (a22 : FVec Ideal S10 .f32)
    (h : fn (F := Ideal) a0 a1 a2 a3 a4 a5 a6 a7 a8 a9 a10 a11 a12 a13 a14 a15 a16 a17 a18 a19 a20 a21 a22 = fun _ => 1#1) :
    (∀ k : Fin 128, 0 ≤ a8 (ix1 k)) ∧ ∀ k : Fin 128, 0 ≤ a16 (ix1 k) := by
  have h0 := congrFun h ix0
  dsimp only [fn, fn_part1, fn_part2, fn_part3, fn_part4, fn_part5, fn_part6] at h0
  obtain ⟨h1, h16⟩ := IntOp.andi_eq_one.1 h0
  obtain ⟨-, h8⟩ := IntOp.andi_eq_one.1 h1
  refine ⟨fun k => ?_, fun k => ?_⟩
  · have hk := Host.reduce_andi_all _ _ _ _ ix0 h8 (ix1 k)
    have hz : (0 : EReal) = Ideal.ofBits .f32 0x00000000#32 := Ideal.ofBits_zero_f32.symm
    rw [hz]
    exact le_of_oge hk
  · have hk := Host.reduce_andi_all _ _ _ _ ix0 h16 (ix1 k)
    have hz : (0 : EReal) = Ideal.ofBits .f32 0x00000000#32 := Ideal.ofBits_zero_f32.symm
    rw [hz]
    exact le_of_oge hk

end Cert.Variance

end
-- ==== Proof.lean ====
/-
  A graph network of two sum-with-neighbours convolutions, a per-graph sum pooling and a two-layer head, computed
  by a program with three pipelined launches (the two convolutions' perceptrons and the head), against the same
  network written with whole-array operations.

  On the extended reals the two agree entry by entry whenever both batch-normalisation variances are >= 0 (the
  precondition's last two conjuncts):

    * each launch writes back, block by block, one row-wise function of the arrays it finds (`Conv1Array`,
      `Conv2Array`, `HeadArray` over the bodies read in `Bodies`);
    * the reference's stages are the same row-wise functions (`RefLayers`), except that it spells the
      normalisation's scale gamma / sqrt (v + eps) where the launches spell gamma * rsqrt (v + eps) — one number for
      v >= 0 (`Rows.scale_eq`) — and multiplies the two pooled arrays side by side with the head's whole first weight
      matrix where the head's launch adds the two halves' products (`Rows.sum_halves`);
    * the gathers and scatter-adds between the launches are the same operations of the same arrays on both sides,
      so the kernel's run ends with the reference's result function of the kernel's own arguments (`KernelValue`).

  The three frames: the two kernel programs' are their launch theorems' (every weakly fair execution terminates,
  nothing faults, the arguments end as launched); the reference's is its run with the result dropped. The
  idealization rewrote nothing, so there is nothing to preserve.
-/
import proofs.«172484_j23390391894890_2_alg».proof.Defs
import proofs.«172484_j23390391894890_2_alg».proof.Proof.Gen.Kernel
import proofs.«172484_j23390391894890_2_alg».proof.Proof.Gen.Kernel.Skeleton
import proofs.«172484_j23390391894890_2_alg».proof.Proof.Gen.Kernel.Launch
import proofs.«172484_j23390391894890_2_alg».proof.Proof.Gen.Kernel.Points
import proofs.«172484_j23390391894890_2_alg».proof.Proof.Gen.Kernel.Frame
import proofs.«172484_j23390391894890_2_alg».proof.Proof.Gen.KernelIdeal
import proofs.«172484_j23390391894890_2_alg».proof.Proof.Gen.KernelIdeal.Skeleton
import proofs.«172484_j23390391894890_2_alg».proof.Proof.Gen.KernelIdeal.Launch
import proofs.«172484_j23390391894890_2_alg».proof.Proof.Gen.KernelIdeal.Points
import proofs.«172484_j23390391894890_2_alg».proof.Proof.Gen.KernelIdeal.Frame
import proofs.«172484_j23390391894890_2_alg».proof.Proof.Gen.ReferenceIdeal
import proofs.«172484_j23390391894890_2_alg».proof.Proof.Gen.ReferenceIdeal.Run
import proofs.«172484_j23390391894890_2_alg».proof.Proof.Gen.ReferenceIdeal.Read
import proofs.«172484_j23390391894890_2_alg».proof.Proof.Gen.Pre_finite_inputs
import proofs.«172484_j23390391894890_2_alg».proof.Proof.KernelRun
import proofs.«172484_j23390391894890_2_alg».proof.Proof.KernelValue
import proofs.«172484_j23390391894890_2_alg».proof.Proof.Variance
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the reference's result function of the (agreeing) arguments: the kernel's by its value read
    off its run under the two variances >= 0, the reference's by its run. -/
theorem algebraic : Cert.algebraic_KernelIdeal_ReferenceIdeal := by
  intro m ρ m' ρ' hpre hagree
  refine ⟨fun c => Cert.KernelIdeal.Value.ref87 m c, ?_, ?_⟩
  · refine (θ_run Cert.KernelIdeal.defs _ _).mono (fun r h c => ?_) (Cert.KernelIdeal.Whole.run_all (F := Ideal) m ρ)
    obtain ⟨hv1, hv2⟩ := Cert.Variance.nonneg_of_pre
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (hpre c)
    exact ⟨(h c _ (Cert.KernelIdeal.Gen.mem_uc Cert.KernelIdeal.main_v50 (by decide))).trans
        (Cert.KernelIdeal.Value.result m ρ c hv1 hv2),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c),
      (h c _ (Cert.KernelIdeal.Gen.mem_uc Cert.KernelIdeal.main_arg9 (by decide))).trans (Cert.KernelIdeal.Gen.W6_main_arg9 m ρ c),
      (h c _ (Cert.KernelIdeal.Gen.mem_uc Cert.KernelIdeal.main_arg10 (by decide))).trans (Cert.KernelIdeal.Gen.W6_main_arg10 m ρ c),
      (h c _ (Cert.KernelIdeal.Gen.mem_uc Cert.KernelIdeal.main_arg11 (by decide))).trans (Cert.KernelIdeal.Gen.W6_main_arg11 m ρ c),
      (h c _ (Cert.KernelIdeal.Gen.mem_uc Cert.KernelIdeal.main_arg12 (by decide))).trans (Cert.KernelIdeal.Gen.W6_main_arg12 m ρ c),
      (h c _ (Cert.KernelIdeal.Gen.mem_uc Cert.KernelIdeal.main_arg13 (by decide))).trans (Cert.KernelIdeal.Gen.W6_main_arg13 m ρ c),
      (h c _ (Cert.KernelIdeal.Gen.mem_uc Cert.KernelIdeal.main_arg14 (by decide))).trans (Cert.KernelIdeal.Gen.W6_main_arg14 m ρ c),
      (h c _ (Cert.KernelIdeal.Gen.mem_uc Cert.KernelIdeal.main_arg15 (by decide))).trans (Cert.KernelIdeal.Gen.W6_main_arg15 m ρ c),
      (h c _ (Cert.KernelIdeal.Gen.mem_uc Cert.KernelIdeal.main_arg16 (by decide))).trans (Cert.KernelIdeal.Gen.W6_main_arg16 m ρ c),
      (h c _ (Cert.KernelIdeal.Gen.mem_uc Cert.KernelIdeal.main_arg17 (by decide))).trans (Cert.KernelIdeal.Gen.W6_main_arg17 m ρ c),
      (h c _ (Cert.KernelIdeal.Gen.mem_uc Cert.KernelIdeal.main_arg18 (by decide))).trans (Cert.KernelIdeal.Gen.W6_main_arg18 m ρ c),
      (h c _ (Cert.KernelIdeal.Gen.mem_uc Cert.KernelIdeal.main_arg19 (by decide))).trans (Cert.KernelIdeal.Gen.W6_main_arg19 m ρ c),
      (h c _ (Cert.KernelIdeal.Gen.mem_uc Cert.KernelIdeal.main_arg20 (by decide))).trans (Cert.KernelIdeal.Gen.W6_main_arg20 m ρ c),
      (h c _ (Cert.KernelIdeal.Gen.mem_uc Cert.KernelIdeal.main_arg21 (by decide))).trans (Cert.KernelIdeal.Gen.W6_main_arg21 m ρ c),
      (h c _ (Cert.KernelIdeal.Gen.mem_uc Cert.KernelIdeal.main_arg22 (by decide))).trans (Cert.KernelIdeal.Gen.W6_main_arg22 m ρ c)⟩
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15, e16, e17, e18, e19, e20, e21, e22⟩ := hagree c
    rw [(h c).1, Cert.ReferenceIdeal.Read.val_main_v87_eq, e0, e1, e2, e3, e4, e5, e6, e7, e8, e9, e10, e11, e12, e13, e14, e15, e16, e17, e18, e19, e20, e21, e22]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
